-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x1024 : Shape := ⟨2, ![50000, 1024]⟩
abbrev S1000000 : Shape := ⟨1, ![1000000]⟩
abbrev S65536 : Shape := ⟨1, ![65536]⟩
abbrev S128x128 : Shape := ⟨2, ![128, 128]⟩
abbrev S128 : Shape := ⟨1, ![128]⟩
abbrev S1024x128 : Shape := ⟨2, ![1024, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x1024 : S_.BroadcastsInDim S50000x1024 (![] : Fin 0 → Fin S50000x1024.rank)
  reducesTo_S50000x1024_S_d0_1 : S50000x1024.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1024x128 : S_.BroadcastsInDim S1024x128 (![] : Fin 0 → Fin S1024x128.rank)
  reducesTo_S1024x128_S_d0_1 : S1024x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg20 : FVec F S128x1 .f32) (main_arg21 : FVec F S1 .f32) (main_v63 : IVec S_ 1) (main_v67 : IVec S_ 1) : IVec S_ 1 :=
  let main_v68 : IVec S_ 1 := andi main_v63 main_v67
  let main_v69 : FVec F S128x1 .f32 := Host.absf main_arg20
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg21
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg17 : FVec F S128x128 .f32) (main_arg18 : FVec F S256x128 .f32) (main_arg19 : FVec F S128 .f32) (main_arg20 : FVec F S128x1 .f32) (main_arg21 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg17
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S256x128 .f32 := Host.absf main_arg18
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg19
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg20 main_arg21 main_v63 main_v67

def fn_part2 {F : FTy → Type} [FloatOps F] (main_arg13 : FVec F S128 .f32) (main_arg14 : FVec F S128x128 .f32) (main_arg15 : FVec F S128x128 .f32) (main_arg16 : FVec F S128 .f32) (main_arg17 : FVec F S128x128 .f32) (main_arg18 : FVec F S256x128 .f32) (main_arg19 : FVec F S128 .f32) (main_arg20 : FVec F S128x1 .f32) (main_arg21 : FVec F S1 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg14
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg15
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg16
  let main_cst_18 : FVec F S_ .f32 := constant S_ .f32 0x7F800000#32
  let main_v50 : FVec F S128 .f32 := broadcastInDim S128 ![] bcast_S_S128 main_cst_18
  fn_part3 (F := F) main_arg17 main_arg18 main_arg19 main_arg20 main_arg21 main_v48 main_v49 main_v50

def fn_part1 {F : FTy → Type} [FloatOps F] (main_arg10 : FVec F S1024x128 .f32) (main_arg11 : FVec F S128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S256x128 .f32) (main_arg19 : FVec F S128 .f32) (main_arg20 : FVec F S128x1 .f32) (main_arg21 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1024x128 .f32 := Host.absf main_arg10
  let main_cst_6 : FVec F S_ .f32 := constant S_ .f32 0x7F800000#32
  let main_v20 : FVec F S1024x128 .f32 := broadcastInDim S1024x128 ![] bcast_S_S1024x128 main_cst_6
  let main_v21 : IVec S1024x128 1 := cmpf .olt main_v19 main_v20
  let main_c_7 : IVec S_ 1 := constantI S_ 1 1#1
  let main_v22 : IVec S_ 1 := (fun x v => Host.reduce IntOp.andi x v reducesTo_S1024x128_S_d0_1 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg12
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg13 main_arg14 main_arg15 main_arg16 main_arg17 main_arg18 main_arg19 main_arg20 main_arg21 main_v33

def fn {F : FTy → Type} [FloatOps F] (main_arg0 : FVec F S100000x128 .f32) (main_arg1 : FVec F S50000x1024 .f32) (main_arg2 : IVec S1000000 32) (main_arg3 : IVec S1000000 32) (main_arg4 : IVec S1000000 32) (main_arg5 : IVec S1000000 32) (main_arg6 : IVec S65536 32) (main_arg7 : IVec S65536 32) (main_arg8 : FVec F S128x128 .f32) (main_arg9 : FVec F S128 .f32) (main_arg10 : FVec F S1024x128 .f32) (main_arg11 : FVec F S128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S256x128 .f32) (main_arg19 : FVec F S128 .f32) (main_arg20 : FVec F S128x1 .f32) (main_arg21 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x1024 .f32 := Host.absf main_arg1
  let main_cst_0 : FVec F S_ .f32 := constant S_ .f32 0x7F800000#32
  let main_v5 : FVec F S50000x1024 .f32 := broadcastInDim S50000x1024 ![] bcast_S_S50000x1024 main_cst_0
  let main_v6 : IVec S50000x1024 1 := cmpf .olt main_v4 main_v5
  let main_c_1 : IVec S_ 1 := constantI S_ 1 1#1
  let main_v7 : IVec S_ 1 := (fun x v => Host.reduce IntOp.andi x v reducesTo_S50000x1024_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg10 main_arg11 main_arg12 main_arg13 main_arg14 main_arg15 main_arg16 main_arg17 main_arg18 main_arg19 main_arg20 main_arg21 main_v13 main_v16
-- ==== Kernel.lean ====
abbrev S100000x128 : Shape := ⟨2, ![100000, 128]⟩
abbrev S50000x1024 : Shape := ⟨2, ![50000, 1024]⟩
abbrev S1000000 : Shape := ⟨1, ![1000000]⟩
abbrev S65536 : Shape := ⟨1, ![65536]⟩
abbrev S128x128 : Shape := ⟨2, ![128, 128]⟩
abbrev S128 : Shape := ⟨1, ![128]⟩
abbrev S1024x128 : Shape := ⟨2, ![1024, 128]⟩
abbrev S256x128 : Shape := ⟨2, ![256, 128]⟩
abbrev S128x1 : Shape := ⟨2, ![128, 1]⟩
abbrev S1 : Shape := ⟨1, ![1]⟩
abbrev S5000x128 : Shape := ⟨2, ![5000, 128]⟩
abbrev S1x128 : Shape := ⟨2, ![1, 128]⟩
abbrev S50000x128 : Shape := ⟨2, ![50000, 128]⟩
abbrev S2000x1024 : Shape := ⟨2, ![2000, 1024]⟩
abbrev S2000x128 : Shape := ⟨2, ![2000, 128]⟩
abbrev S_ : Shape := ⟨0, ![]⟩
abbrev S1000000x1 : Shape := ⟨2, ![1000000, 1]⟩
abbrev S1000000x128 : Shape := ⟨2, ![1000000, 128]⟩
abbrev S50000 : Shape := ⟨1, ![50000]⟩
abbrev S50000x1 : Shape := ⟨2, ![50000, 1]⟩
abbrev S100000 : Shape := ⟨1, ![100000]⟩
abbrev S100000x1 : Shape := ⟨2, ![100000, 1]⟩
abbrev S65536x1 : Shape := ⟨2, ![65536, 1]⟩
abbrev S65536x128 : Shape := ⟨2, ![65536, 128]⟩
abbrev S8192x128 : Shape := ⟨2, ![8192, 128]⟩
abbrev S8192x1 : Shape := ⟨2, ![8192, 1]⟩
abbrev S1x1 : Shape := ⟨2, ![1, 1]⟩

abbrev nBuf : Space → Nat
  | .hbm => 98
  | .vmem => 41
  | .smem => 0
  | _ => 0

abbrev bufTy : (tb : Table) → Fin (tcTables nBuf tb) → BufTy
  | .hbm, ⟨0, _⟩ => ⟨S100000x128, .f32⟩
  | .hbm, ⟨1, _⟩ => ⟨S50000x1024, .f32⟩
  | .hbm, ⟨2, _⟩ => ⟨S1000000, .i32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S65536, .i32⟩
  | .hbm, ⟨7, _⟩ => ⟨S65536, .i32⟩
  | .hbm, ⟨8, _⟩ => ⟨S128x128, .f32⟩
  | .hbm, ⟨9, _⟩ => ⟨S128, .f32⟩
  | .hbm, ⟨10, _⟩ => ⟨S1024x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S256x128, .f32⟩
  | .hbm, ⟨19, _⟩ => ⟨S128, .f32⟩
  | .hbm, ⟨20, _⟩ => ⟨S128x1, .f32⟩
  | .hbm, ⟨21, _⟩ => ⟨S1, .f32⟩
  | .hbm, ⟨22, _⟩ => ⟨S100000x128, .f32⟩
  | .hbm, ⟨23, _⟩ => ⟨S50000x128, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x128, .f32⟩
  | .hbm, ⟨33, _⟩ => ⟨S_, .f32⟩
  | .hbm, ⟨34, _⟩ => ⟨S50000x128, .f32⟩
  | .hbm, ⟨35, _⟩ => ⟨S1000000x1, .i32⟩
  | .hbm, ⟨36, _⟩ => ⟨S50000x128, .f32⟩
  | .hbm, ⟨37, _⟩ => ⟨S_, .f32⟩
  | .hbm, ⟨38, _⟩ => ⟨S1000000, .f32⟩
  | .hbm, ⟨39, _⟩ => ⟨S_, .f32⟩
  | .hbm, ⟨40, _⟩ => ⟨S50000, .f32⟩
  | .hbm, ⟨41, _⟩ => ⟨S1000000x1, .i32⟩
  | .hbm, ⟨42, _⟩ => ⟨S50000, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S1000000, .i32⟩
  | .hbm, ⟨52, _⟩ => ⟨S1000000, .i1⟩
  | .hbm, ⟨53, _⟩ => ⟨S_, .i32⟩
  | .hbm, ⟨54, _⟩ => ⟨S1000000, .i32⟩
  | .hbm, ⟨55, _⟩ => ⟨S1000000, .i32⟩
  | .hbm, ⟨56, _⟩ => ⟨S1000000, .i32⟩
  | .hbm, ⟨57, _⟩ => ⟨S1000000x1, .i32⟩
  | .hbm, ⟨58, _⟩ => ⟨S1000000x128, .f32⟩
  | .hbm, ⟨59, _⟩ => ⟨S_, .f32⟩
  | .hbm, ⟨60, _⟩ => ⟨S100000x128, .f32⟩
  | .hbm, ⟨61, _⟩ => ⟨S1000000x1, .i32⟩
  | .hbm, ⟨62, _⟩ => ⟨S100000x128, .f32⟩
  | .hbm, ⟨63, _⟩ => ⟨S_, .f32⟩
  | .hbm, ⟨64, _⟩ => ⟨S1000000, .f32⟩
  | .hbm, ⟨65, _⟩ => ⟨S_, .f32⟩
  | .hbm, ⟨66, _⟩ => ⟨S100000, .f32⟩
  | .hbm, ⟨67, _⟩ => ⟨S1000000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S65536, .i32⟩
  | .hbm, ⟨78, _⟩ => ⟨S65536, .i1⟩
  | .hbm, ⟨79, _⟩ => ⟨S_, .i32⟩
  | .hbm, ⟨80, _⟩ => ⟨S65536, .i32⟩
  | .hbm, ⟨81, _⟩ => ⟨S65536, .i32⟩
  | .hbm, ⟨82, _⟩ => ⟨S65536, .i32⟩
  | .hbm, ⟨83, _⟩ => ⟨S65536x1, .i32⟩
  | .hbm, ⟨84, _⟩ => ⟨S65536x128, .f32⟩
  | .hbm, ⟨85, _⟩ => ⟨S_, .i32⟩
  | .hbm, ⟨86, _⟩ => ⟨S65536, .i32⟩
  | .hbm, ⟨87, _⟩ => ⟨S65536, .i1⟩
  | .hbm, ⟨88, _⟩ => ⟨S_, .i32⟩
  | .hbm, ⟨89, _⟩ => ⟨S65536, .i32⟩
  | .hbm, ⟨90, _⟩ => ⟨S65536, .i32⟩
  | .hbm, ⟨91, _⟩ => ⟨S65536, .i32⟩
  | .hbm, ⟨92, _⟩ => ⟨S65536x1, .i32⟩
  | .hbm, ⟨93, _⟩ => ⟨S65536x128, .f32⟩
  | .hbm, ⟨94, _⟩ => ⟨S128x128, .f32⟩
  | .hbm, ⟨95, _⟩ => ⟨S128x128, .f32⟩
  | .hbm, ⟨96, _⟩ => ⟨S65536x1, .f32⟩
  | .hbm, ⟨97, _⟩ => ⟨S65536, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S2000x1024, .f32⟩
  | .local _ .vmem, ⟨7, _⟩ => ⟨S2000x1024, .f32⟩
  | .local _ .vmem, ⟨8, _⟩ => ⟨S1024x128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S128, .f32⟩
  | .local _ .vmem, ⟨27, _⟩ => ⟨S128x128, .f32⟩
  | .local _ .vmem, ⟨28, _⟩ => ⟨S5000x128, .f32⟩
  | .local _ .vmem, ⟨29, _⟩ => ⟨S5000x128, .f32⟩
  | .local _ .vmem, ⟨30, _⟩ => ⟨S8192x128, .f32⟩
  | .local _ .vmem, ⟨31, _⟩ => ⟨S8192x128, .f32⟩
  | .local _ .vmem, ⟨32, _⟩ => ⟨S8192x128, .f32⟩
  | .local _ .vmem, ⟨33, _⟩ => ⟨S8192x128, .f32⟩
  | .local _ .vmem, ⟨34, _⟩ => ⟨S128x128, .f32⟩
  | .local _ .vmem, ⟨35, _⟩ => ⟨S128x128, .f32⟩
  | .local _ .vmem, ⟨36, _⟩ => ⟨S128, .f32⟩
  | .local _ .vmem, ⟨37, _⟩ => ⟨S128x1, .f32⟩
  | .local _ .vmem, ⟨38, _⟩ => ⟨S1, .f32⟩
  | .local _ .vmem, ⟨39, _⟩ => ⟨S8192x1, .f32⟩
  | .local _ .vmem, ⟨40, _⟩ => ⟨S8192x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_c : Ref sig .tc := ⟨.hbm, 24, rfl⟩
abbrev main_v2 : Ref sig .tc := ⟨.hbm, 25, rfl⟩
abbrev main_v3 : Ref sig .tc := ⟨.hbm, 26, rfl⟩
abbrev main_c_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_cst_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_3 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_6 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_7 : Ref sig .tc := ⟨.hbm, 63, rfl⟩
abbrev main_v32 : Ref sig .tc := ⟨.hbm, 64, rfl⟩
abbrev main_cst_8 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_9 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_c_10 : Ref sig .tc := ⟨.hbm, 76, rfl⟩
abbrev main_v42 : Ref sig .tc := ⟨.hbm, 77, rfl⟩
abbrev main_v43 : Ref sig .tc := ⟨.hbm, 78, rfl⟩
abbrev main_c_11 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_c_12 : Ref sig .tc := ⟨.hbm, 85, rfl⟩
abbrev main_v49 : Ref sig .tc := ⟨.hbm, 86, rfl⟩
abbrev main_v50 : Ref sig .tc := ⟨.hbm, 87, rfl⟩
abbrev main_c_13 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg7_0 : Ref sig .tc := ⟨.vmem, 39, rfl⟩
abbrev cc4_stg7_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem7_0 : DmaSem sig := 39
abbrev cc4_sem7_1 : DmaSem sig := 40

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S8192x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S2000x1024_S2000x1024_0_0 : ∀ a, (![0, 0] : Fin 2 → Nat) a + S2000x1024.size a ≤ S2000x1024.size a
  h_S2000x1024 : 0 < S2000x1024.numel
  inb_S1024x128_S1024x128_0_0 : ∀ a, (![0, 0] : Fin 2 → Nat) a + S1024x128.size a ≤ S1024x128.size a
  h_S1024x128 : 0 < S1024x128.numel
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S5000x128_S5000x128 : S5000x128.ShapeCasts S5000x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S65536 : S_.BroadcastsInDim S65536 (![] : Fin 0 → Fin S65536.rank)
  bcast_S65536_S65536x1_0 : S65536.BroadcastsInDim S65536x1 (![0] : Fin 1 → Fin S65536x1.rank)
  slices_S256x128_S128x128_0_0 : S256x128.Slices ![0, 0] S128x128
  slices_S256x128_S128x128_128_0 : S256x128.Slices ![128, 0] S128x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S128x128_S128x128 : S128x128.ShapeCasts S128x128
  broadcasts_S1x128_S8192x128 : S1x128.Broadcasts S8192x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  shapeCasts_S65536x1_S65536 : S65536x1.ShapeCasts S65536
  dot_S5000x128_S128x128_S5000x128_1_0_0_1_n_n_wf : DotDims.WF S5000x128 S128x128 S5000x128 [1] [0] [0] [1] [] []
  dot_S2000x1024_S1024x128_S2000x128_1_0_0_1_n_n_wf : DotDims.WF S2000x1024 S1024x128 S2000x128 [1] [0] [0] [1] [] []
  gather_S100000x128_S1000000x1_S1000000x128_1_0_n_n_0_1_1128_wf : GatherDims.WF S100000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  gather_S50000x128_S1000000x1_S1000000x128_1_0_n_n_0_1_1128_wf : GatherDims.WF S50000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  gather_S100000x128_S65536x1_S65536x128_1_0_n_n_0_1_1128_wf : GatherDims.WF S100000x128 S65536x1 S65536x128 [1] [0] [] [0] [] 1 ![1, 128]
  gather_S50000x128_S65536x1_S65536x128_1_0_n_n_0_1_1128_wf : GatherDims.WF S50000x128 S65536x1 S65536x128 [1] [0] [] [0] [] 1 ![1, 128]
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1024.size a ≤ S50000x1024.size a
  hwx1_0 : ∀ i : grid1.Coords, EltTy.bits .f32 = 32 ∨ (Rect.block (s := S50000x1024) S2000x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x128.size a
  hwx1_1 : ∀ i : grid1.Coords, EltTy.bits .f32 = 32 ∨ (Rect.block (s := S1024x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x128.size a ≤ S65536x128.size a
  hwx4_0 : ∀ i : grid4.Coords, EltTy.bits .f32 = 32 ∨ (Rect.block (s := S65536x128) S8192x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x128.size a ≤ S65536x128.size a
  hwx4_1 : ∀ i : grid4.Coords, EltTy.bits .f32 = 32 ∨ (Rect.block (s := S65536x128) S8192x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x1.size a ≤ S128x1.size a
  hwx4_5 : ∀ i : grid4.Coords, EltTy.bits .f32 = 32 ∨ (Rect.block (s := S128x1) S128x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1.size a ≤ S1.size a
  hwx4_6 : ∀ i : grid4.Coords, EltTy.bits .f32 = 32 ∨ (Rect.block (s := S1) S1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S8192x1.size a ≤ S65536x1.size a
  hwx4_7 : ∀ i : grid4.Coords, EltTy.bits .f32 = 32 ∨ (Rect.block (s := S65536x1) S8192x1.size (cc4_transform_7 i) (hinb4_7 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x128_S65536x1_S65536x128_1_0_n_n_0_1_1128 : GatherDims S100000x128 S65536x1 S65536x128 where
  offsetDims := [1]
  collapsedSliceDims := [0]
  operandBatchingDims := []
  startIndicesBatchingDims := []
  startIndexMap := [0]
  indexVectorDim := 1
  sliceSizes := ![1, 128]
  wf := gather_S100000x128_S65536x1_S65536x128_1_0_n_n_0_1_1128_wf
def gather_S50000x128_S65536x1_S65536x128_1_0_n_n_0_1_1128 : GatherDims S50000x128 S65536x1 S65536x128 where
  offsetDims := [1]
  collapsedSliceDims := [0]
  operandBatchingDims := []
  startIndicesBatchingDims := []
  startIndexMap := [0]
  indexVectorDim := 1
  sliceSizes := ![1, 128]
  wf := gather_S50000x128_S65536x1_S65536x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S1024x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v20) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v40) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg15) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg16) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v41) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v48) S8192x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S8192x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v57) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg19) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg20) S128x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg21) S1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v58) S8192x1.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x128 : Shape := ⟨2, ![100000, 128]⟩
abbrev S50000x1024 : Shape := ⟨2, ![50000, 1024]⟩
abbrev S1000000 : Shape := ⟨1, ![1000000]⟩
abbrev S65536 : Shape := ⟨1, ![65536]⟩
abbrev S128x128 : Shape := ⟨2, ![128, 128]⟩
abbrev S128 : Shape := ⟨1, ![128]⟩
abbrev S1024x128 : Shape := ⟨2, ![1024, 128]⟩
abbrev S256x128 : Shape := ⟨2, ![256, 128]⟩
abbrev S128x1 : Shape := ⟨2, ![128, 1]⟩
abbrev S1 : Shape := ⟨1, ![1]⟩
abbrev S1x128 : Shape := ⟨2, ![1, 128]⟩
abbrev S50000x128 : Shape := ⟨2, ![50000, 128]⟩
abbrev S_ : Shape := ⟨0, ![]⟩
abbrev S1000000x1 : Shape := ⟨2, ![1000000, 1]⟩
abbrev S1000000x128 : Shape := ⟨2, ![1000000, 128]⟩
abbrev S50000 : Shape := ⟨1, ![50000]⟩
abbrev S50000x1 : Shape := ⟨2, ![50000, 1]⟩
abbrev S100000 : Shape := ⟨1, ![100000]⟩
abbrev S100000x1 : Shape := ⟨2, ![100000, 1]⟩
abbrev S65536x1 : Shape := ⟨2, ![65536, 1]⟩
abbrev S65536x128 : Shape := ⟨2, ![65536, 128]⟩
abbrev S65536x256 : Shape := ⟨2, ![65536, 256]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x1024, .f32⟩
  | .hbm, ⟨2, _⟩ => ⟨S1000000, .i32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S65536, .i32⟩
  | .hbm, ⟨7, _⟩ => ⟨S65536, .i32⟩
  | .hbm, ⟨8, _⟩ => ⟨S128x128, .f32⟩
  | .hbm, ⟨9, _⟩ => ⟨S128, .f32⟩
  | .hbm, ⟨10, _⟩ => ⟨S1024x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S256x128, .f32⟩
  | .hbm, ⟨19, _⟩ => ⟨S128, .f32⟩
  | .hbm, ⟨20, _⟩ => ⟨S128x1, .f32⟩
  | .hbm, ⟨21, _⟩ => ⟨S1, .f32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S50000x128, .f32⟩
  | .hbm, ⟨27, _⟩ => ⟨S1x128, .f32⟩
  | .hbm, ⟨28, _⟩ => ⟨S50000x128, .f32⟩
  | .hbm, ⟨29, _⟩ => ⟨S50000x128, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000x128, .f32⟩
  | .hbm, ⟨39, _⟩ => ⟨S_, .f32⟩
  | .hbm, ⟨40, _⟩ => ⟨S50000x128, .f32⟩
  | .hbm, ⟨41, _⟩ => ⟨S1000000x1, .i32⟩
  | .hbm, ⟨42, _⟩ => ⟨S50000x128, .f32⟩
  | .hbm, ⟨43, _⟩ => ⟨S_, .f32⟩
  | .hbm, ⟨44, _⟩ => ⟨S1000000, .f32⟩
  | .hbm, ⟨45, _⟩ => ⟨S_, .f32⟩
  | .hbm, ⟨46, _⟩ => ⟨S50000, .f32⟩
  | .hbm, ⟨47, _⟩ => ⟨S1000000x1, .i32⟩
  | .hbm, ⟨48, _⟩ => ⟨S50000, .f32⟩
  | .hbm, ⟨49, _⟩ => ⟨S_, .f32⟩
  | .hbm, ⟨50, _⟩ => ⟨S50000, .f32⟩
  | .hbm, ⟨51, _⟩ => ⟨S50000, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S1000000, .i32⟩
  | .hbm, ⟨63, _⟩ => ⟨S1000000, .i1⟩
  | .hbm, ⟨64, _⟩ => ⟨S_, .i32⟩
  | .hbm, ⟨65, _⟩ => ⟨S1000000, .i32⟩
  | .hbm, ⟨66, _⟩ => ⟨S1000000, .i32⟩
  | .hbm, ⟨67, _⟩ => ⟨S1000000, .i32⟩
  | .hbm, ⟨68, _⟩ => ⟨S1000000x1, .i32⟩
  | .hbm, ⟨69, _⟩ => ⟨S1000000x128, .f32⟩
  | .hbm, ⟨70, _⟩ => ⟨S_, .f32⟩
  | .hbm, ⟨71, _⟩ => ⟨S100000x128, .f32⟩
  | .hbm, ⟨72, _⟩ => ⟨S1000000x1, .i32⟩
  | .hbm, ⟨73, _⟩ => ⟨S100000x128, .f32⟩
  | .hbm, ⟨74, _⟩ => ⟨S_, .f32⟩
  | .hbm, ⟨75, _⟩ => ⟨S1000000, .f32⟩
  | .hbm, ⟨76, _⟩ => ⟨S_, .f32⟩
  | .hbm, ⟨77, _⟩ => ⟨S100000, .f32⟩
  | .hbm, ⟨78, _⟩ => ⟨S1000000x1, .i32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S100000x1, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S_, .i32⟩
  | .hbm, ⟨93, _⟩ => ⟨S65536, .i32⟩
  | .hbm, ⟨94, _⟩ => ⟨S65536, .i1⟩
  | .hbm, ⟨95, _⟩ => ⟨S_, .i32⟩
  | .hbm, ⟨96, _⟩ => ⟨S65536, .i32⟩
  | .hbm, ⟨97, _⟩ => ⟨S65536, .i32⟩
  | .hbm, ⟨98, _⟩ => ⟨S65536, .i32⟩
  | .hbm, ⟨99, _⟩ => ⟨S65536x1, .i32⟩
  | .hbm, ⟨100, _⟩ => ⟨S65536x128, .f32⟩
  | .hbm, ⟨101, _⟩ => ⟨S_, .i32⟩
  | .hbm, ⟨102, _⟩ => ⟨S65536, .i32⟩
  | .hbm, ⟨103, _⟩ => ⟨S65536, .i1⟩
  | .hbm, ⟨104, _⟩ => ⟨S_, .i32⟩
  | .hbm, ⟨105, _⟩ => ⟨S65536, .i32⟩
  | .hbm, ⟨106, _⟩ => ⟨S65536, .i32⟩
  | .hbm, ⟨107, _⟩ => ⟨S65536, .i32⟩
  | .hbm, ⟨108, _⟩ => ⟨S65536x1, .i32⟩
  | .hbm, ⟨109, _⟩ => ⟨S65536x128, .f32⟩
  | .hbm, ⟨110, _⟩ => ⟨S65536x256, .f32⟩
  | .hbm, ⟨111, _⟩ => ⟨S65536x128, .f32⟩
  | .hbm, ⟨112, _⟩ => ⟨S1x128, .f32⟩
  | .hbm, ⟨113, _⟩ => ⟨S65536x128, .f32⟩
  | .hbm, ⟨114, _⟩ => ⟨S65536x128, .f32⟩
  | .hbm, ⟨115, _⟩ => ⟨S_, .f32⟩
  | .hbm, ⟨116, _⟩ => ⟨S65536x128, .f32⟩
  | .hbm, ⟨117, _⟩ => ⟨S65536x128, .f32⟩
  | .hbm, ⟨118, _⟩ => ⟨S65536x1, .f32⟩
  | .hbm, ⟨119, _⟩ => ⟨S1x1, .f32⟩
  | .hbm, ⟨120, _⟩ => ⟨S65536x1, .f32⟩
  | .hbm, ⟨121, _⟩ => ⟨S65536x1, .f32⟩
  | .hbm, ⟨122, _⟩ => ⟨S65536, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c : Ref sig .tc := ⟨.hbm, 30, rfl⟩
abbrev main_v8 : Ref sig .tc := ⟨.hbm, 31, rfl⟩
abbrev main_v9 : Ref sig .tc := ⟨.hbm, 32, rfl⟩
abbrev main_c_0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_1 : Ref sig .tc := ⟨.hbm, 43, rfl⟩
abbrev main_v18 : Ref sig .tc := ⟨.hbm, 44, rfl⟩
abbrev main_cst_2 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_3 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_4 : Ref sig .tc := ⟨.hbm, 61, rfl⟩
abbrev main_v33 : Ref sig .tc := ⟨.hbm, 62, rfl⟩
abbrev main_v34 : Ref sig .tc := ⟨.hbm, 63, rfl⟩
abbrev main_c_5 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_6 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_7 : Ref sig .tc := ⟨.hbm, 74, rfl⟩
abbrev main_v43 : Ref sig .tc := ⟨.hbm, 75, rfl⟩
abbrev main_cst_8 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_9 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_c_10 : Ref sig .tc := ⟨.hbm, 92, rfl⟩
abbrev main_v58 : Ref sig .tc := ⟨.hbm, 93, rfl⟩
abbrev main_v59 : Ref sig .tc := ⟨.hbm, 94, rfl⟩
abbrev main_c_11 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_12 : Ref sig .tc := ⟨.hbm, 101, rfl⟩
abbrev main_v65 : Ref sig .tc := ⟨.hbm, 102, rfl⟩
abbrev main_v66 : Ref sig .tc := ⟨.hbm, 103, rfl⟩
abbrev main_c_13 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_call0_cst : Ref sig .tc := ⟨.hbm, 115, rfl⟩
abbrev main_call0_v0 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S50000x128_0_1 : S1x128.BroadcastsInDim S50000x128 (![0, 1] : Fin 2 → Fin S50000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S65536 : S_.BroadcastsInDim S65536 (![] : Fin 0 → Fin S65536.rank)
  bcast_S65536_S65536x1_0 : S65536.BroadcastsInDim S65536x1 (![0] : Fin 1 → Fin S65536x1.rank)
  concatenates_S65536x128_S65536x128_S65536x256_d1 : Shape.Concatenates [S65536x128, S65536x128] S65536x256 1
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  shapeCasts_S65536x1_S65536 : S65536x1.ShapeCasts S65536
  dot_S100000x128_S128x128_S100000x128_1_0_0_1_n_n_wf : DotDims.WF S100000x128 S128x128 S100000x128 [1] [0] [0] [1] [] []
  dot_S50000x1024_S1024x128_S50000x128_1_0_0_1_n_n_wf : DotDims.WF S50000x1024 S1024x128 S50000x128 [1] [0] [0] [1] [] []
  gather_S100000x128_S1000000x1_S1000000x128_1_0_n_n_0_1_1128_wf : GatherDims.WF S100000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  dot_S50000x128_S128x128_S50000x128_1_0_0_1_n_n_wf : DotDims.WF S50000x128 S128x128 S50000x128 [1] [0] [0] [1] [] []
  gather_S50000x128_S1000000x1_S1000000x128_1_0_n_n_0_1_1128_wf : GatherDims.WF S50000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  gather_S100000x128_S65536x1_S65536x128_1_0_n_n_0_1_1128_wf : GatherDims.WF S100000x128 S65536x1 S65536x128 [1] [0] [] [0] [] 1 ![1, 128]
  gather_S50000x128_S65536x1_S65536x128_1_0_n_n_0_1_1128_wf : GatherDims.WF S50000x128 S65536x1 S65536x128 [1] [0] [] [0] [] 1 ![1, 128]
  dot_S65536x256_S256x128_S65536x128_1_0_0_1_n_n_wf : DotDims.WF S65536x256 S256x128 S65536x128 [1] [0] [0] [1] [] []
  dot_S65536x128_S128x1_S65536x1_1_0_0_1_n_n_wf : DotDims.WF S65536x128 S128x1 S65536x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x1024_S1024x128_S50000x128_1_0_0_1_n_n : DotDims S50000x1024 S1024x128 S50000x128 where
  lhsContracting := [1]
  rhsContracting := [0]
  lhsNonContracting := [0]
  rhsNonContracting := [1]
  lhsBatch := []
  rhsBatch := []
  wf := dot_S50000x1024_S1024x128_S50000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x128_S65536x1_S65536x128_1_0_n_n_0_1_1128 : GatherDims S100000x128 S65536x1 S65536x128 where
  offsetDims := [1]
  collapsedSliceDims := [0]
  operandBatchingDims := []
  startIndicesBatchingDims := []
  startIndexMap := [0]
  indexVectorDim := 1
  sliceSizes := ![1, 128]
  wf := gather_S100000x128_S65536x1_S65536x128_1_0_n_n_0_1_1128_wf
def gather_S50000x128_S65536x1_S65536x128_1_0_n_n_0_1_1128 : GatherDims S50000x128 S65536x1 S65536x128 where
  offsetDims := [1]
  collapsedSliceDims := [0]
  operandBatchingDims := []
  startIndicesBatchingDims := []
  startIndexMap := [0]
  indexVectorDim := 1
  sliceSizes := ![1, 128]
  wf := gather_S50000x128_S65536x1_S65536x128_1_0_n_n_0_1_1128_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def dot_S65536x128_S128x1_S65536x1_1_0_0_1_n_n : DotDims S65536x128 S128x1 S65536x1 where
  lhsContracting := [1]
  rhsContracting := [0]
  lhsNonContracting := [0]
  rhsNonContracting := [1]
  lhsBatch := []
  rhsBatch := []
  wf := dot_S65536x128_S128x1_S65536x1_1_0_0_1_n_n_wf

class Facts : Prop extends Facts₀ where

variable [Facts]
-- ==== Proof.KernelRun.lean ====
/-
  The idealized kernel's run, with its result named.

  The program is five pipelined regions among stretches of host operations.  Running it from any memory
  with zero counters, every weakly fair execution terminates without a fault; the contents of every
  unscoped buffer at the end are the last link of a chain of boundary contents: a region replaces its
  own arrays by what its write-backs leave and keeps every other buffer, a host stretch applies its
  operations in order.  The generated frame keeps only the argument buffers from that final state;
  here the result buffer is kept as well, at the chain's last contents.
-/
import proofs.«170178_j15101105013216_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the
    last boundary's contents and every argument buffer as launched. -/
theorem run : θ_run defs (onTc (τ := τ) (main (F := F))) ⟨m, fun _ => 0, ρ⟩ (fun r => ∀ c : Dev nD,
      r.2.mem ((c.tc : Thread nD τ).loc main_v59) = W9 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v59 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c),
       (h c _ (mem_uc main_arg19 (by decide))).trans (W9_main_arg19 m ρ c),
       (h c _ (mem_uc main_arg20 (by decide))).trans (W9_main_arg20 m ρ c),
       (h c _ (mem_uc main_arg21 (by decide))).trans (W9_main_arg21 m ρ c)⟩)

end Cert.KernelIdeal.Run

end
-- ==== Proof.Spec.lean ====
/-
  The whole-array functions this certificate's two programs both compute, stated index by index on the
  extended reals.

  A linear layer is a matrix product plus a row of biases:
    lin X W b (r, q) = (Σ_k X(r, k) · W(k, q)) + b(q).
  A SAGE combination adds a second product after the bias, in this order:
    sage A X Wl bl Wr (r, q) = ((Σ_k A(r, k) · Wl(k, q)) + bl(q)) + Σ_k X(r, k) · Wr(k, q).
  The pair head takes the two gathered feature rows, multiplies each by its half of the first weight
  matrix, adds the two products and then the bias, clamps at zero from below, and applies the second layer:
    hid xd xp W1d W1p b1 (r, j) = max (((Σ_k xd(r, k) · W1d(k, j)) + Σ_k xp(r, k) · W1p(k, j)) + b1(j)) 0
    mlp … (r, 0) = (Σ_j hid(r, j) · W2(j, 0)) + b2(0).
  Every sum is a finite sum in the commutative monoid of extended reals; no law beyond that is used
  to state these, so nothing here asks the inputs to be finite.
-/
import proofs.«170178_j15101105013216_1_alg».proof.KernelIdeal
import Idealize.ShloMosaic.PureOps.Ideal
import Idealize.ShloMosaic.Lib.ValueIdx

noncomputable section

namespace Cert.Spec

open Idealize.ShloMosaic Idealize.ShloMosaic.ValueIdx Cert.KernelIdeal

/-- Row coordinate of an index of a two-axis shape, as a number below the row count. -/
abbrev rowOf {n0 n1 : Nat} (i : (⟨2, ![n0, n1]⟩ : Shape).Idx) : Fin n0 := ⟨(i 0).val, (i 0).isLt⟩
/-- Column coordinate of an index of a two-axis shape, as a number below the column count. -/
abbrev colOf {n0 n1 : Nat} (i : (⟨2, ![n0, n1]⟩ : Shape).Idx) : Fin n1 := ⟨(i 1).val, (i 1).isLt⟩

/-- One entry of a matrix product plus bias: row `r` of `X` against column `q` of `W`, plus `b q`. -/
def linAt {M K N : Nat} (X : (⟨2, ![M, K]⟩ : Shape).Idx → EReal) (W : (⟨2, ![K, N]⟩ : Shape).Idx → EReal)
    (b : (⟨1, ![N]⟩ : Shape).Idx → EReal) (r : Fin M) (q : Fin N) : EReal :=
  (∑ k : Fin K, X (ix2 r k) * W (ix2 k q)) + b (ix1 q)

/-- One entry of a SAGE combination: neighbour product, plus bias, plus root product. -/
def sageAt {M K N : Nat} (A X : (⟨2, ![M, K]⟩ : Shape).Idx → EReal) (Wl : (⟨2, ![K, N]⟩ : Shape).Idx → EReal)
    (bl : (⟨1, ![N]⟩ : Shape).Idx → EReal) (Wr : (⟨2, ![K, N]⟩ : Shape).Idx → EReal) (r : Fin M) (q : Fin N) : EReal :=
  ((∑ k : Fin K, A (ix2 r k) * Wl (ix2 k q)) + bl (ix1 q)) + ∑ k : Fin K, X (ix2 r k) * Wr (ix2 k q)

/-- One hidden unit of the pair head, after the clamp at zero. -/
def hidAt {M K N : Nat} (xd xp : (⟨2, ![M, K]⟩ : Shape).Idx → EReal) (W1d W1p : (⟨2, ![K, N]⟩ : Shape).Idx → EReal)
    (b1 : (⟨1, ![N]⟩ : Shape).Idx → EReal) (r : Fin M) (j : Fin N) : EReal :=
  max (((∑ k : Fin K, xd (ix2 r k) * W1d (ix2 k j)) + ∑ k : Fin K, xp (ix2 r k) * W1p (ix2 k j)) + b1 (ix1 j)) 0

/-- One output of the pair head: the hidden row against the second layer's column, plus its bias. -/
def mlpAt {M K N P : Nat} (xd xp : (⟨2, ![M, K]⟩ : Shape).Idx → EReal) (W1d W1p : (⟨2, ![K, N]⟩ : Shape).Idx → EReal)
    (b1 : (⟨1, ![N]⟩ : Shape).Idx → EReal) (W2 : (⟨2, ![N, P]⟩ : Shape).Idx → EReal) (b2 : (⟨1, ![P]⟩ : Shape).Idx → EReal)
    (r : Fin M) (p : Fin P) : EReal :=
  (∑ j : Fin N, hidAt xd xp W1d W1p b1 r j * W2 (ix2 j p)) + b2 (ix1 p)

/-- The drug projection, 100000 rows: `x_drug · W + b`. -/
def linD (X : FVec Ideal S100000x128 .f32) (W : FVec Ideal S128x128 .f32) (b : FVec Ideal S128 .f32) : FVec Ideal S100000x128 .f32 :=
  fun i => linAt (M := 100000) (K := 128) (N := 128) X W b (rowOf i) (colOf i)

/-- The protein projection, 50000 rows of 1024 features: `x_protein · W + b`. -/
def linP (X : FVec Ideal S50000x1024 .f32) (W : FVec Ideal S1024x128 .f32) (b : FVec Ideal S128 .f32) : FVec Ideal S50000x128 .f32 :=
  fun i => linAt (M := 50000) (K := 1024) (N := 128) X W b (rowOf i) (colOf i)

/-- The protein-side SAGE combination, 50000 rows. -/
def sageP (A X : FVec Ideal S50000x128 .f32) (Wl : FVec Ideal S128x128 .f32) (bl : FVec Ideal S128 .f32) (Wr : FVec Ideal S128x128 .f32) :
    FVec Ideal S50000x128 .f32 :=
  fun i => sageAt (M := 50000) (K := 128) (N := 128) A X Wl bl Wr (rowOf i) (colOf i)

/-- The drug-side SAGE combination, 100000 rows. -/
def sageD (A X : FVec Ideal S100000x128 .f32) (Wl : FVec Ideal S128x128 .f32) (bl : FVec Ideal S128 .f32) (Wr : FVec Ideal S128x128 .f32) :
    FVec Ideal S100000x128 .f32 :=
  fun i => sageAt (M := 100000) (K := 128) (N := 128) A X Wl bl Wr (rowOf i) (colOf i)

/-- The pair head over the 65536 gathered pairs, one output column. -/
def mlp (xd xp : FVec Ideal S65536x128 .f32) (W1d W1p : FVec Ideal S128x128 .f32) (b1 : FVec Ideal S128 .f32)
    (W2 : FVec Ideal S128x1 .f32) (b2 : FVec Ideal S1 .f32) : FVec Ideal S65536x1 .f32 :=
  fun i => mlpAt (M := 65536) (K := 128) (N := 128) (P := 1) xd xp W1d W1p b1 W2 b2 (rowOf i) (colOf i)

end Cert.Spec

end
-- ==== Proof.LinDValue.lean ====
/-
  The drug projection (the first region of the idealized kernel) as one whole-array function.

  The region is a grid of 20 points; point `t` stages rows 5000·t … 5000·t + 4999 of the input matrix
  together with the whole weight matrix and bias row, and writes back the same rows of the output.
  One block's result is, entry by entry, the product of the block's row with the weight's column plus the
  bias entry (the change of float format before the product is the identity on extended reals, and the
  product is accumulated into zero).  A row of the block is a row of the whole matrix, so block `t` of
  the output is block `t` of the whole-matrix function `Cert.Spec.linD`; the 20 blocks tile the rows, so
  the array ends holding that function everywhere.
-/
import proofs.«170178_j15101105013216_1_alg».proof.Proof.Gen.KernelIdeal.Frame
import proofs.«170178_j15101105013216_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LinDValue

open Cert.KernelIdeal Cert.KernelIdeal.Gen Cert.Spec
open Idealize.ShloMosaic Idealize.ShloMosaic.TcCoe Idealize.SL.Sem Idealize.ShloMosaic.ValueIdx
open Idealize.ShloMosaic.Pipeline (Dat)

/-! ## One block: the product at an entry -/

/-- The block product's dimension record. -/
abbrev D := dot_S5000x128_S128x128_S5000x128_1_0_0_1_n_n

theorem lhs_row (i : S5000x128.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl

theorem rhs_col (i : S5000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- A block product into the zero accumulator, at entry `(p, q)`: the sum over the shared axis of the products. -/
theorem matmul_at (A : FVec Ideal S5000x128 .bf16) (B : FVec Ideal S128x128 .bf16) (p : Fin 5000) (q : Fin 128) :
    matmul D none A B (constant (F := Ideal) S5000x128 .f32 0x00000000#32) (ix2 p q) = ∑ k : Fin 128, A (ix2 p k) * B (ix2 k q) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (D.lhsIdx_val_of_single rfl _ _).trans hk)
  have er : D.rhsIdx (ix2 p q) ((contrEquiv1 D 128 rfl rfl).symm k) = ix2 k q := funext fun a => Fin.ext (by
    match a with
    | ⟨0, _⟩ => exact (D.rhsIdx_val_of_single rfl _ _).trans hk
    | ⟨1, _⟩ => exact rhs_col _ _)
  rw [el, er]

/-! ## One block: the body's result at an entry -/

/-- The body's stored value at entry `(p, q)` of its block: the block's row `p` against the weight's column `q`, plus the
    bias at `q` (the bias row is reshaped to one row and repeated down the block). -/
theorem pay_at (x0 : Vec Ideal S5000x128 .f32) (x1 : Vec Ideal S128x128 .f32) (x2 : Vec Ideal S128 .f32) (p : Fin 5000) (q : Fin 128) :
    k0_pay1 x0 x1 x2 (ix2 p q) = linAt (M := 5000) (K := 128) (N := 128) x0 x1 x2 p q := by
  unfold k0_pay1 linAt
  show matmul D none (truncf .bf16 x0 bitsLt_bf16_f32) (truncf .bf16 x1 bitsLt_bf16_f32) (constant (F := Ideal) S5000x128 .f32 0x00000000#32) (ix2 p q)
      + broadcastTo S5000x128 (shapeCast S1x128 x2 shapeCasts_S128_S1x128) broadcasts_S1x128_S5000x128 (ix2 p q) = _
  rw [matmul_at, broadcastTo_1b_ab_apply, shapeCast_a_1a_apply]
  rfl

/-! ## From blocks to the array -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the input block moves with the output block down the rows, the weight and the
    bias stay put, and the output's block row stays below the number of blocks. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) ≤ 19 :=
  (by decide +kernel : ∀ t : Fin grid0.N, _)

/-- Every block row is some point's. -/
theorem idx_onto : ∀ q0 : Fin 20, ∃ t : Fin cfg0.N, win0_3.index t = ![q0.val, 0] :=
  (by decide +kernel : ∀ q0 : Fin 20, ∃ t : Fin grid0.N, win0_3.index t = ![q0.val, 0])

variable (V : (c : Dev nD) → (b : Ref sig .tc) → Buf (Elt Ideal) ((c : Thread nD τ).loc b))

set_option maxHeartbeats 1000000 in
/-- What point `t` writes back is block `t` of the whole-matrix function of the arrays as the region finds them. -/
theorem flushed_eq (c : Dev nD) (t : Fin cfg0.N) :
    (dat0 V c).flushed 3 t = ((cfg0.win 3).blk t).view.read (Elt Ideal) (Cert.Spec.linD (V c main_arg0) (V c main_arg8) (V c main_arg9)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S128) hz1]
  obtain ⟨e0, e1, e2, e3, e4, e5, e6⟩ := idx_facts t
  funext j
  obtain ⟨p, q, rfl⟩ : ∃ (p : Fin 5000) (q : Fin 128), j = ix2 p q := ⟨j 0, j 1, eq_ix2 j⟩
  show k0_pay1 (fun y : S5000x128.Idx => V c main_arg0 (((cfg0.win 0).blk t).view.emb y))
      (fun y : S128x128.Idx => V c main_arg8 (((cfg0.win 1).blk t).view.emb y))
      (fun y : S128.Idx => V c main_arg9 (((cfg0.win 2).blk t).view.emb y)) (ix2 p q)
    = Cert.Spec.linD (V c main_arg0) (V c main_arg8) (V c main_arg9) (((cfg0.win 3).blk t).view.emb (ix2 p q))
  rw [pay_at]
  unfold Cert.Spec.linD linAt
  have hX : ∀ k : Fin 128, ((cfg0.win 0).blk t).view.emb (ix2 p k)
      = ix2 (rowOf (((cfg0.win 3).blk t).view.emb (ix2 p q))) k := fun k => by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have hW : ∀ k : Fin 128, ((cfg0.win 1).blk t).view.emb (ix2 k q)
      = ix2 k (colOf (((cfg0.win 3).blk t).view.emb (ix2 p q))) := fun k => by
    funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have hb : ((cfg0.win 2).blk t).view.emb (ix1 q)
      = ix1 (colOf (((cfg0.win 3).blk t).view.emb (ix2 p q))) := by
    funext a; apply Fin.ext
    match a with
    | ⟨0, _⟩ => show win0_2.index t (0 : Fin 1) * 128 + 1 * q.val = win0_3.index t (1 : Fin 2) * 128 + 1 * q.val; omega
  dsimp only
  rw [hb]
  refine congrArg (· + _) (Finset.sum_congr rfl fun k _ => ?_)
  rw [hX k, hW k]

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v0).slice (win0_3.rect t)).set ↔ _
  rw [View.set_slice_whole, Rect.mem_set_unit]
  exact Iff.rfl

/-- Every row of the array lies in the block of the point whose block row is the row divided by the block height. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region: the whole-matrix function of the region's input arrays. -/
theorem arr (c : Dev nD) :
    (dat0 V c).arrAt 3 cfg0.N = Cert.Spec.linD (V c main_arg0) (V c main_arg8) (V c main_arg9) :=
  (dat0 V c).arrAt_eq_of_cover 3 (Cert.Spec.linD (V c main_arg0) (V c main_arg8) (V c main_arg9)) (fun t _ => flushed_eq V c t) cover

end Cert.KernelIdeal.LinDValue

end
-- ==== Proof.LinPValue.lean ====
/-
  The protein projection (the second region of the idealized kernel) as one whole-array function.

  The region is a grid of 25 points; point `t` stages rows 2000·t … 2000·t + 1999 of the input matrix
  together with the whole weight matrix and bias row, and writes back the same rows of the output.
  One block's result is, entry by entry, the product of the block's row with the weight's column plus the
  bias entry (the change of float format before the product is the identity on extended reals, and the
  product is accumulated into zero).  A row of the block is a row of the whole matrix, so block `t` of
  the output is block `t` of the whole-matrix function `Cert.Spec.linP`; the 25 blocks tile the rows, so
  the array ends holding that function everywhere.
-/
import proofs.«170178_j15101105013216_1_alg».proof.Proof.Gen.KernelIdeal.Frame
import proofs.«170178_j15101105013216_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LinPValue

open Cert.KernelIdeal Cert.KernelIdeal.Gen Cert.Spec
open Idealize.ShloMosaic Idealize.ShloMosaic.TcCoe Idealize.SL.Sem Idealize.ShloMosaic.ValueIdx
open Idealize.ShloMosaic.Pipeline (Dat)

/-! ## One block: the product at an entry -/

/-- The block product's dimension record. -/
abbrev D := dot_S2000x1024_S1024x128_S2000x128_1_0_0_1_n_n

theorem lhs_row (i : S2000x128.Idx) (q : D.contr.Idx) : (D.lhsIdx i q 0).val = (i 0).val := by
  unfold DotDims.lhsIdx
  rw [dif_neg (show ¬(0 : Fin S2000x1024.rank) ∈ D.lhsBatch by decide), dif_pos (show (0 : Fin S2000x1024.rank) ∈ D.lhsNonContracting by decide)]
  rfl

theorem rhs_col (i : S2000x128.Idx) (q : D.contr.Idx) : (D.rhsIdx i q 1).val = (i 1).val := by
  unfold DotDims.rhsIdx
  rw [dif_neg (show ¬(1 : Fin S1024x128.rank) ∈ D.rhsBatch by decide), dif_pos (show (1 : Fin S1024x128.rank) ∈ D.rhsNonContracting by decide)]
  rfl

/-- A block product into the zero accumulator, at entry `(p, q)`: the sum over the shared axis of the products. -/
theorem matmul_at (A : FVec Ideal S2000x1024 .bf16) (B : FVec Ideal S1024x128 .bf16) (p : Fin 2000) (q : Fin 128) :
    matmul D none A B (constant (F := Ideal) S2000x128 .f32 0x00000000#32) (ix2 p q) = ∑ k : Fin 1024, A (ix2 p k) * B (ix2 k q) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 p q) ((contrEquiv1 D 1024 rfl rfl).symm k) = ix2 p k := funext fun a => Fin.ext (by
    match a with
    | ⟨0, _⟩ => exact lhs_row _ _
    | ⟨1, _⟩ => exact (D.lhsIdx_val_of_single rfl _ _).trans hk)
  have er : D.rhsIdx (ix2 p q) ((contrEquiv1 D 1024 rfl rfl).symm k) = ix2 k q := funext fun a => Fin.ext (by
    match a with
    | ⟨0, _⟩ => exact (D.rhsIdx_val_of_single rfl _ _).trans hk
    | ⟨1, _⟩ => exact rhs_col _ _)
  rw [el, er]

/-! ## One block: the body's result at an entry -/

/-- The body's stored value at entry `(p, q)` of its block: the block's row `p` against the weight's column `q`, plus the
    bias at `q` (the bias row is reshaped to one row and repeated down the block). -/
theorem pay_at (x0 : Vec Ideal S2000x1024 .f32) (x1 : Vec Ideal S1024x128 .f32) (x2 : Vec Ideal S128 .f32) (p : Fin 2000) (q : Fin 128) :
    k1_pay1 x0 x1 x2 (ix2 p q) = linAt (M := 2000) (K := 1024) (N := 128) x0 x1 x2 p q := by
  unfold k1_pay1 linAt
  show matmul D none (truncf .bf16 x0 bitsLt_bf16_f32) (truncf .bf16 x1 bitsLt_bf16_f32) (constant (F := Ideal) S2000x128 .f32 0x00000000#32) (ix2 p q)
      + broadcastTo S2000x128 (shapeCast S1x128 x2 shapeCasts_S128_S1x128) broadcasts_S1x128_S2000x128 (ix2 p q) = _
  rw [matmul_at, broadcastTo_1b_ab_apply, shapeCast_a_1a_apply]
  rfl

/-! ## From blocks to the array -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the input block moves with the output block down the rows, the weight and the
    bias stay put, and the output's block row stays below the number of blocks. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 1) = 0
    ∧ win1_3.index t (1 : Fin 2) = 0 ∧ win1_3.index t (0 : Fin 2) ≤ 24 :=
  (by decide +kernel : ∀ t : Fin grid1.N, _)

/-- Every block row is some point's. -/
theorem idx_onto : ∀ q0 : Fin 25, ∃ t : Fin cfg1.N, win1_3.index t = ![q0.val, 0] :=
  (by decide +kernel : ∀ q0 : Fin 25, ∃ t : Fin grid1.N, win1_3.index t = ![q0.val, 0])

variable (V : (c : Dev nD) → (b : Ref sig .tc) → Buf (Elt Ideal) ((c : Thread nD τ).loc b))

set_option maxHeartbeats 1000000 in
/-- What point `t` writes back is block `t` of the whole-matrix function of the arrays as the region finds them. -/
theorem flushed_eq (c : Dev nD) (t : Fin cfg1.N) :
    (dat1 V c).flushed 3 t = ((cfg1.win 3).blk t).view.read (Elt Ideal) (Cert.Spec.linP (V c main_arg1) (V c main_arg10) (V c main_arg11)) := by
  show (cfg1.win 3).cut (grid1.coords t) ((dat1 V c).after 3 t) = _
  rw [after1_3]
  unfold out1_3
  rw [View.canon_unit_zero hz2]
  simp only [View.ld_unit_zero (S := S2000x1024) hz2, View.ld_unit_zero (S := S1024x128) hz2, View.ld_unit_zero (S := S128) hz1, View.ld_unit_zero (S := S2000x128) hz2]
  obtain ⟨e0, e1, e2, e3, e4, e5, e6⟩ := idx_facts t
  funext j
  obtain ⟨p, q, rfl⟩ : ∃ (p : Fin 2000) (q : Fin 128), j = ix2 p q := ⟨j 0, j 1, eq_ix2 j⟩
  show k1_pay1 (fun y : S2000x1024.Idx => V c main_arg1 (((cfg1.win 0).blk t).view.emb y))
      (fun y : S1024x128.Idx => V c main_arg10 (((cfg1.win 1).blk t).view.emb y))
      (fun y : S128.Idx => V c main_arg11 (((cfg1.win 2).blk t).view.emb y)) (ix2 p q)
    = Cert.Spec.linP (V c main_arg1) (V c main_arg10) (V c main_arg11) (((cfg1.win 3).blk t).view.emb (ix2 p q))
  rw [pay_at]
  unfold Cert.Spec.linP linAt
  have hX : ∀ k : Fin 1024, ((cfg1.win 0).blk t).view.emb (ix2 p k)
      = ix2 (rowOf (((cfg1.win 3).blk t).view.emb (ix2 p q))) k := fun k => by
    funext a; apply Fin.ext
    match a with
    | ⟨0, _⟩ => show win1_0.index t (0 : Fin 2) * 2000 + 1 * p.val = win1_3.index t (0 : Fin 2) * 2000 + 1 * p.val; omega
    | ⟨1, _⟩ => show win1_0.index t (1 : Fin 2) * 1024 + 1 * k.val = k.val; omega
  have hW : ∀ k : Fin 1024, ((cfg1.win 1).blk t).view.emb (ix2 k q)
      = ix2 k (colOf (((cfg1.win 3).blk t).view.emb (ix2 p q))) := fun k => by
    funext a; apply Fin.ext
    match a with
    | ⟨0, _⟩ => show win1_1.index t (0 : Fin 2) * 1024 + 1 * k.val = k.val; omega
    | ⟨1, _⟩ => show win1_1.index t (1 : Fin 2) * 128 + 1 * q.val = win1_3.index t (1 : Fin 2) * 128 + 1 * q.val; omega
  have hb : ((cfg1.win 2).blk t).view.emb (ix1 q)
      = ix1 (colOf (((cfg1.win 3).blk t).view.emb (ix2 p q))) := by
    funext a; apply Fin.ext
    match a with
    | ⟨0, _⟩ => show win1_2.index t (0 : Fin 1) * 128 + 1 * q.val = win1_3.index t (1 : Fin 2) * 128 + 1 * q.val; omega
  dsimp only
  rw [hb]
  refine congrArg (· + _) (Finset.sum_congr rfl fun k _ => ?_)
  rw [hX k, hW k]

/-- An index of the array is in point `t`'s block iff each coordinate is in the block's range on its axis. -/
theorem mem_blk (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v1).slice (win1_3.rect t)).set ↔ _
  rw [View.set_slice_whole, Rect.mem_set_unit]
  exact Iff.rfl

/-- Every row of the array lies in the block of the point whose block row is the row divided by the block height. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := idx_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- The output array after the region: the whole-matrix function of the region's input arrays. -/
theorem arr (c : Dev nD) :
    (dat1 V c).arrAt 3 cfg1.N = Cert.Spec.linP (V c main_arg1) (V c main_arg10) (V c main_arg11) :=
  (dat1 V c).arrAt_eq_of_cover 3 (Cert.Spec.linP (V c main_arg1) (V c main_arg10) (V c main_arg11)) (fun t _ => flushed_eq V c t) cover

end Cert.KernelIdeal.LinPValue

end
-- ==== Proof.SagePValue.lean ====
/-
  The protein-side SAGE combination (the third region of the idealized kernel) as one whole-array function.

  The region is a grid of 10 points; point `t` stages rows 5000·t … 5000·t + 4999 of the aggregated-neighbour matrix
  and of the root-feature matrix, together with the two whole weight matrices and the bias row, and writes back
  the same rows of the output.  One block's result is, entry by entry, the neighbour row against the first weight's
  column, plus the bias entry, plus the root row against the second weight's column — in that order of additions.
  A row of a block is a row of the whole matrix, so block `t` of the output is block `t` of the whole-matrix
  function `Cert.Spec.sageP`; the 10 blocks tile the rows, so the array ends holding that function everywhere.
-/
import proofs.«170178_j15101105013216_1_alg».proof.Proof.Gen.KernelIdeal.Frame
import proofs.«170178_j15101105013216_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SagePValue

open Cert.KernelIdeal Cert.KernelIdeal.Gen Cert.Spec
open Idealize.ShloMosaic Idealize.ShloMosaic.TcCoe Idealize.SL.Sem Idealize.ShloMosaic.ValueIdx
open Idealize.ShloMosaic.Pipeline (Dat)

/-! ## One block: a product at an entry -/

/-- The block products' dimension record. -/
abbrev D := dot_S5000x128_S128x128_S5000x128_1_0_0_1_n_n

theorem lhs_row (i : S5000x128.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl

theorem rhs_col (i : S5000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- A block product into the zero accumulator, at entry `(p, q)`: the sum over the shared axis of the products. -/
theorem matmul_at (A : FVec Ideal S5000x128 .bf16) (B : FVec Ideal S128x128 .bf16) (p : Fin 5000) (q : Fin 128) :
    matmul D none A B (constant (F := Ideal) S5000x128 .f32 0x00000000#32) (ix2 p q) = ∑ k : Fin 128, A (ix2 p k) * B (ix2 k q) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (D.lhsIdx_val_of_single rfl _ _).trans hk)
  have er : D.rhsIdx (ix2 p q) ((contrEquiv1 D 128 rfl rfl).symm k) = ix2 k q := funext fun a => Fin.ext (by
    match a with
    | ⟨0, _⟩ => exact (D.rhsIdx_val_of_single rfl _ _).trans hk
    | ⟨1, _⟩ => exact rhs_col _ _)
  rw [el, er]

/-! ## One block: the body's result at an entry -/

/-- The body's stored value at entry `(p, q)` of its block (the two block loads pass through an identity reshape and the
    change of float format, both the identity here; the bias row is reshaped to one row and repeated down the block). -/
theorem pay_at (xa xx : Vec Ideal S5000x128 .f32) (wl wr : Vec Ideal S128x128 .f32) (bl : Vec Ideal S128 .f32) (p : Fin 5000) (q : Fin 128) :
    k2_pay1 xa xx wl wr bl (ix2 p q) = sageAt (M := 5000) (K := 128) (N := 128) xa xx wl bl wr p q := by
  unfold k2_pay1 sageAt
  show (matmul D none (truncf .bf16 (shapeCast S5000x128 xa shapeCasts_S5000x128_S5000x128) bitsLt_bf16_f32) (truncf .bf16 wl bitsLt_bf16_f32) (constant (F := Ideal) S5000x128 .f32 0x00000000#32) (ix2 p q)
      + broadcastTo S5000x128 (shapeCast S1x128 bl shapeCasts_S128_S1x128) broadcasts_S1x128_S5000x128 (ix2 p q))
      + matmul D none (truncf .bf16 (shapeCast S5000x128 xx shapeCasts_S5000x128_S5000x128) bitsLt_bf16_f32) (truncf .bf16 wr bitsLt_bf16_f32) (constant (F := Ideal) S5000x128 .f32 0x00000000#32) (ix2 p q) = _
  rw [matmul_at, matmul_at, broadcastTo_1b_ab_apply, shapeCast_a_1a_apply, shapeCast_self, shapeCast_self]
  rfl

/-! ## From blocks to the array -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: both input blocks move with the output block down the rows, the weights
    and the bias stay put, and the output's block row stays below the number of blocks. -/
theorem idx_facts : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (1 : Fin 2) = 0 ∧ win2_5.index t (0 : Fin 2) ≤ 9 :=
  (by decide +kernel : ∀ t : Fin grid2.N, _)

/-- Every block row is some point's. -/
theorem idx_onto : ∀ q0 : Fin 10, ∃ t : Fin cfg2.N, win2_5.index t = ![q0.val, 0] :=
  (by decide +kernel : ∀ q0 : Fin 10, ∃ t : Fin grid2.N, win2_5.index t = ![q0.val, 0])

variable (V : (c : Dev nD) → (b : Ref sig .tc) → Buf (Elt Ideal) ((c : Thread nD τ).loc b))

set_option maxHeartbeats 1000000 in
/-- What point `t` writes back is block `t` of the whole-matrix function of the arrays as the region finds them. -/
theorem flushed_eq (c : Dev nD) (t : Fin cfg2.N) :
    (dat2 V c).flushed 5 t = ((cfg2.win 5).blk t).view.read (Elt Ideal)
      (Cert.Spec.sageP (V c main_v20) (V c main_v1) (V c main_arg12) (V c main_arg13) (V c main_arg14)) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S128x128) hz2, View.ld_unit_zero (S := S128) hz1]
  obtain ⟨e0, e1, e2, e3, e4, e5, e6, e7, e8, e9, e10⟩ := idx_facts t
  funext j
  obtain ⟨p, q, rfl⟩ : ∃ (p : Fin 5000) (q : Fin 128), j = ix2 p q := ⟨j 0, j 1, eq_ix2 j⟩
  show k2_pay1 (fun y : S5000x128.Idx => V c main_v20 (((cfg2.win 0).blk t).view.emb y))
      (fun y : S5000x128.Idx => V c main_v1 (((cfg2.win 1).blk t).view.emb y))
      (fun y : S128x128.Idx => V c main_arg12 (((cfg2.win 2).blk t).view.emb y))
      (fun y : S128x128.Idx => V c main_arg14 (((cfg2.win 4).blk t).view.emb y))
      (fun y : S128.Idx => V c main_arg13 (((cfg2.win 3).blk t).view.emb y)) (ix2 p q)
    = Cert.Spec.sageP (V c main_v20) (V c main_v1) (V c main_arg12) (V c main_arg13) (V c main_arg14) (((cfg2.win 5).blk t).view.emb (ix2 p q))
  rw [pay_at]
  unfold Cert.Spec.sageP sageAt
  have hA : ∀ k : Fin 128, ((cfg2.win 0).blk t).view.emb (ix2 p k)
      = ix2 (rowOf (((cfg2.win 5).blk t).view.emb (ix2 p q))) k := fun k => by
    funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  have hX : ∀ k : Fin 128, ((cfg2.win 1).blk t).view.emb (ix2 p k)
      = ix2 (rowOf (((cfg2.win 5).blk t).view.emb (ix2 p q))) k := fun k => by
    funext a; apply Fin.ext
    match a with
    | ⟨0, _⟩ => show win2_1.index t (0 : Fin 2) * 5000 + 1 * p.val = win2_5.index t (0 : Fin 2) * 5000 + 1 * p.val; omega
    | ⟨1, _⟩ => show win2_1.index t (1 : Fin 2) * 128 + 1 * k.val = k.val; omega
  have hWl : ∀ k : Fin 128, ((cfg2.win 2).blk t).view.emb (ix2 k q)
      = ix2 k (colOf (((cfg2.win 5).blk t).view.emb (ix2 p q))) := fun k => by
    funext a; apply Fin.ext
    match a with
    | ⟨0, _⟩ => show win2_2.index t (0 : Fin 2) * 128 + 1 * k.val = k.val; omega
    | ⟨1, _⟩ => show win2_2.index t (1 : Fin 2) * 128 + 1 * q.val = win2_5.index t (1 : Fin 2) * 128 + 1 * q.val; omega
  have hWr : ∀ k : Fin 128, ((cfg2.win 4).blk t).view.emb (ix2 k q)
      = ix2 k (colOf (((cfg2.win 5).blk t).view.emb (ix2 p q))) := fun k => by
    funext a; apply Fin.ext
    match a with
    | ⟨0, _⟩ => show win2_4.index t (0 : Fin 2) * 128 + 1 * k.val = k.val; omega
    | ⟨1, _⟩ => show win2_4.index t (1 : Fin 2) * 128 + 1 * q.val = win2_5.index t (1 : Fin 2) * 128 + 1 * q.val; omega
  have hb : ((cfg2.win 3).blk t).view.emb (ix1 q)
      = ix1 (colOf (((cfg2.win 5).blk t).view.emb (ix2 p q))) := by
    funext a; apply Fin.ext
    match a with
    | ⟨0, _⟩ => show win2_3.index t (0 : Fin 1) * 128 + 1 * q.val = win2_5.index t (1 : Fin 2) * 128 + 1 * q.val; omega
  dsimp only
  rw [hb]
  refine congrArg₂ (· + ·) (congrArg (· + _) (Finset.sum_congr rfl fun k _ => ?_)) (Finset.sum_congr rfl fun k _ => ?_)
  · rw [hA k, hWl k]
  · rw [hX k, hWr k]

/-- An index of the array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v21).slice (win2_5.rect t)).set ↔ _
  rw [View.set_slice_whole, Rect.mem_set_unit]
  exact Iff.rfl

/-- Every row of the array lies in the block of the point whose block row is the row divided by the block height. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The output array after the region: the whole-matrix function of the region's input arrays. -/
theorem arr (c : Dev nD) :
    (dat2 V c).arrAt 5 cfg2.N = Cert.Spec.sageP (V c main_v20) (V c main_v1) (V c main_arg12) (V c main_arg13) (V c main_arg14) :=
  (dat2 V c).arrAt_eq_of_cover 5 (Cert.Spec.sageP (V c main_v20) (V c main_v1) (V c main_arg12) (V c main_arg13) (V c main_arg14))
    (fun t _ => flushed_eq V c t) cover

end Cert.KernelIdeal.SagePValue

end
-- ==== Proof.SageDValue.lean ====
/-
  The drug-side SAGE combination (the fourth region of the idealized kernel) as one whole-array function.

  The region is a grid of 20 points; point `t` stages rows 5000·t … 5000·t + 4999 of the aggregated-neighbour matrix
  and of the root-feature matrix, together with the two whole weight matrices and the bias row, and writes back
  the same rows of the output.  One block's result is, entry by entry, the neighbour row against the first weight's
  column, plus the bias entry, plus the root row against the second weight's column — in that order of additions.
  A row of a block is a row of the whole matrix, so block `t` of the output is block `t` of the whole-matrix
  function `Cert.Spec.sageD`; the 20 blocks tile the rows, so the array ends holding that function everywhere.
-/
import proofs.«170178_j15101105013216_1_alg».proof.Proof.Gen.KernelIdeal.Frame
import proofs.«170178_j15101105013216_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SageDValue

open Cert.KernelIdeal Cert.KernelIdeal.Gen Cert.Spec
open Idealize.ShloMosaic Idealize.ShloMosaic.TcCoe Idealize.SL.Sem Idealize.ShloMosaic.ValueIdx
open Idealize.ShloMosaic.Pipeline (Dat)

/-! ## One block: a product at an entry -/

/-- The block products' dimension record. -/
abbrev D := dot_S5000x128_S128x128_S5000x128_1_0_0_1_n_n

theorem lhs_row (i : S5000x128.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl

theorem rhs_col (i : S5000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- A block product into the zero accumulator, at entry `(p, q)`: the sum over the shared axis of the products. -/
theorem matmul_at (A : FVec Ideal S5000x128 .bf16) (B : FVec Ideal S128x128 .bf16) (p : Fin 5000) (q : Fin 128) :
    matmul D none A B (constant (F := Ideal) S5000x128 .f32 0x00000000#32) (ix2 p q) = ∑ k : Fin 128, A (ix2 p k) * B (ix2 k q) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (D.lhsIdx_val_of_single rfl _ _).trans hk)
  have er : D.rhsIdx (ix2 p q) ((contrEquiv1 D 128 rfl rfl).symm k) = ix2 k q := funext fun a => Fin.ext (by
    match a with
    | ⟨0, _⟩ => exact (D.rhsIdx_val_of_single rfl _ _).trans hk
    | ⟨1, _⟩ => exact rhs_col _ _)
  rw [el, er]

/-! ## One block: the body's result at an entry -/

/-- The body's stored value at entry `(p, q)` of its block (the two block loads pass through an identity reshape and the
    change of float format, both the identity here; the bias row is reshaped to one row and repeated down the block). -/
theorem pay_at (xa xx : Vec Ideal S5000x128 .f32) (wl wr : Vec Ideal S128x128 .f32) (bl : Vec Ideal S128 .f32) (p : Fin 5000) (q : Fin 128) :
    k3_pay1 xa xx wl wr bl (ix2 p q) = sageAt (M := 5000) (K := 128) (N := 128) xa xx wl bl wr p q := by
  unfold k3_pay1 sageAt
  show (matmul D none (truncf .bf16 (shapeCast S5000x128 xa shapeCasts_S5000x128_S5000x128) bitsLt_bf16_f32) (truncf .bf16 wl bitsLt_bf16_f32) (constant (F := Ideal) S5000x128 .f32 0x00000000#32) (ix2 p q)
      + broadcastTo S5000x128 (shapeCast S1x128 bl shapeCasts_S128_S1x128) broadcasts_S1x128_S5000x128 (ix2 p q))
      + matmul D none (truncf .bf16 (shapeCast S5000x128 xx shapeCasts_S5000x128_S5000x128) bitsLt_bf16_f32) (truncf .bf16 wr bitsLt_bf16_f32) (constant (F := Ideal) S5000x128 .f32 0x00000000#32) (ix2 p q) = _
  rw [matmul_at, matmul_at, broadcastTo_1b_ab_apply, shapeCast_a_1a_apply, shapeCast_self, shapeCast_self]
  rfl

/-! ## From blocks to the array -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: both input blocks move with the output block down the rows, the weights
    and the bias stay put, and the output's block row stays below the number of blocks. -/
theorem idx_facts : ∀ t : Fin cfg3.N, win3_0.index t (0 : Fin 2) = win3_5.index t (0 : Fin 2)
    ∧ win3_0.index t (1 : Fin 2) = 0
    ∧ win3_1.index t (0 : Fin 2) = win3_5.index t (0 : Fin 2)
    ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (1 : Fin 2) = 0 ∧ win3_5.index t (0 : Fin 2) ≤ 19 :=
  (by decide +kernel : ∀ t : Fin grid3.N, _)

/-- Every block row is some point's. -/
theorem idx_onto : ∀ q0 : Fin 20, ∃ t : Fin cfg3.N, win3_5.index t = ![q0.val, 0] :=
  (by decide +kernel : ∀ q0 : Fin 20, ∃ t : Fin grid3.N, win3_5.index t = ![q0.val, 0])

variable (V : (c : Dev nD) → (b : Ref sig .tc) → Buf (Elt Ideal) ((c : Thread nD τ).loc b))

set_option maxHeartbeats 1000000 in
/-- What point `t` writes back is block `t` of the whole-matrix function of the arrays as the region finds them. -/
theorem flushed_eq (c : Dev nD) (t : Fin cfg3.N) :
    (dat3 V c).flushed 5 t = ((cfg3.win 5).blk t).view.read (Elt Ideal)
      (Cert.Spec.sageD (V c main_v40) (V c main_v0) (V c main_arg15) (V c main_arg16) (V c main_arg17)) := by
  show (cfg3.win 5).cut (grid3.coords t) ((dat3 V c).after 5 t) = _
  rw [after3_5]
  unfold out3_5
  rw [View.canon_unit_zero hz2]
  simp only [View.ld_unit_zero (S := S5000x128) hz2, View.ld_unit_zero (S := S128x128) hz2, View.ld_unit_zero (S := S128) hz1]
  obtain ⟨e0, e1, e2, e3, e4, e5, e6, e7, e8, e9, e10⟩ := idx_facts t
  funext j
  obtain ⟨p, q, rfl⟩ : ∃ (p : Fin 5000) (q : Fin 128), j = ix2 p q := ⟨j 0, j 1, eq_ix2 j⟩
  show k3_pay1 (fun y : S5000x128.Idx => V c main_v40 (((cfg3.win 0).blk t).view.emb y))
      (fun y : S5000x128.Idx => V c main_v0 (((cfg3.win 1).blk t).view.emb y))
      (fun y : S128x128.Idx => V c main_arg15 (((cfg3.win 2).blk t).view.emb y))
      (fun y : S128x128.Idx => V c main_arg17 (((cfg3.win 4).blk t).view.emb y))
      (fun y : S128.Idx => V c main_arg16 (((cfg3.win 3).blk t).view.emb y)) (ix2 p q)
    = Cert.Spec.sageD (V c main_v40) (V c main_v0) (V c main_arg15) (V c main_arg16) (V c main_arg17) (((cfg3.win 5).blk t).view.emb (ix2 p q))
  rw [pay_at]
  unfold Cert.Spec.sageD sageAt
  have hA : ∀ k : Fin 128, ((cfg3.win 0).blk t).view.emb (ix2 p k)
      = ix2 (rowOf (((cfg3.win 5).blk t).view.emb (ix2 p q))) k := fun k => by
    funext a; apply Fin.ext
    match a with
    | ⟨0, _⟩ => show win3_0.index t (0 : Fin 2) * 5000 + 1 * p.val = win3_5.index t (0 : Fin 2) * 5000 + 1 * p.val; omega
    | ⟨1, _⟩ => show win3_0.index t (1 : Fin 2) * 128 + 1 * k.val = k.val; omega
  have hX : ∀ k : Fin 128, ((cfg3.win 1).blk t).view.emb (ix2 p k)
      = ix2 (rowOf (((cfg3.win 5).blk t).view.emb (ix2 p q))) k := fun k => by
    funext a; apply Fin.ext
    match a with
    | ⟨0, _⟩ => show win3_1.index t (0 : Fin 2) * 5000 + 1 * p.val = win3_5.index t (0 : Fin 2) * 5000 + 1 * p.val; omega
    | ⟨1, _⟩ => show win3_1.index t (1 : Fin 2) * 128 + 1 * k.val = k.val; omega
  have hWl : ∀ k : Fin 128, ((cfg3.win 2).blk t).view.emb (ix2 k q)
      = ix2 k (colOf (((cfg3.win 5).blk t).view.emb (ix2 p q))) := fun k => by
    funext a; apply Fin.ext
    match a with
    | ⟨0, _⟩ => show win3_2.index t (0 : Fin 2) * 128 + 1 * k.val = k.val; omega
    | ⟨1, _⟩ => show win3_2.index t (1 : Fin 2) * 128 + 1 * q.val = win3_5.index t (1 : Fin 2) * 128 + 1 * q.val; omega
  have hWr : ∀ k : Fin 128, ((cfg3.win 4).blk t).view.emb (ix2 k q)
      = ix2 k (colOf (((cfg3.win 5).blk t).view.emb (ix2 p q))) := fun k => by
    funext a; apply Fin.ext
    match a with
    | ⟨0, _⟩ => show win3_4.index t (0 : Fin 2) * 128 + 1 * k.val = k.val; omega
    | ⟨1, _⟩ => show win3_4.index t (1 : Fin 2) * 128 + 1 * q.val = win3_5.index t (1 : Fin 2) * 128 + 1 * q.val; omega
  have hb : ((cfg3.win 3).blk t).view.emb (ix1 q)
      = ix1 (colOf (((cfg3.win 5).blk t).view.emb (ix2 p q))) := by
    funext a; apply Fin.ext
    match a with
    | ⟨0, _⟩ => show win3_3.index t (0 : Fin 1) * 128 + 1 * q.val = win3_5.index t (1 : Fin 2) * 128 + 1 * q.val; omega
  dsimp only
  rw [hb]
  refine congrArg₂ (· + ·) (congrArg (· + _) (Finset.sum_congr rfl fun k _ => ?_)) (Finset.sum_congr rfl fun k _ => ?_)
  · rw [hA k, hWl k]
  · rw [hX k, hWr k]

/-- An index of the array is in point `t`'s block iff each coordinate is in the block's range on its axis. -/
theorem mem_blk (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v41).slice (win3_5.rect t)).set ↔ _
  rw [View.set_slice_whole, Rect.mem_set_unit]
  exact Iff.rfl

/-- Every row of the array lies in the block of the point whose block row is the row divided by the block height. -/
theorem cover (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ := idx_onto ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The output array after the region: the whole-matrix function of the region's input arrays. -/
theorem arr (c : Dev nD) :
    (dat3 V c).arrAt 5 cfg3.N = Cert.Spec.sageD (V c main_v40) (V c main_v0) (V c main_arg15) (V c main_arg16) (V c main_arg17) :=
  (dat3 V c).arrAt_eq_of_cover 5 (Cert.Spec.sageD (V c main_v40) (V c main_v0) (V c main_arg15) (V c main_arg16) (V c main_arg17))
    (fun t _ => flushed_eq V c t) cover

end Cert.KernelIdeal.SageDValue

end
-- ==== Proof.RefIs.lean ====
/-
  The reference's four matrix stages are the specification's functions.

  Each stage of the reference is a host matrix product read at an entry as the sum over the shared axis of
  the products, a bias row repeated down the rows, and additions in the program's order; read at an
  index these are exactly the specification's entries.  The operands of the two SAGE stages are kept as
  they stand (the aggregated-neighbour array and the projected features): nothing about them is opened.
-/
import proofs.«170178_j15101105013216_1_alg».proof.Proof.Gen.ReferenceIdeal.Read
import proofs.«170178_j15101105013216_1_alg».proof.Proof.Spec

noncomputable section

namespace Cert.ReferenceIdeal.RefIs

open Cert.ReferenceIdeal Cert.ReferenceIdeal.Read
open Idealize.ShloMosaic Idealize.ShloMosaic.ValueIdx Cert.Spec

/-- The drug projection: `x·W + b` over 100000 rows. -/
theorem linD_eq (x0 : FVec Ideal S100000x128 .f32) (x8 : FVec Ideal S128x128 .f32) (x9 : FVec Ideal S128 .f32) :
    Cert.Spec.linD x0 x8 x9 = val_main_v3 (F := Ideal) x0 x8 x9 := by
  funext i
  rw [val_main_v3_apply, val_main_v0_apply, val_main_v2_apply, val_main_v1_apply]
  unfold Cert.Spec.linD Cert.Spec.linAt
  have hl : ∀ k : Fin 128, lidx_main_v0 i k = ix2 (rowOf i) k := fun k => funext fun a => by
    match a with | ⟨0, _⟩ => rfl | ⟨1, _⟩ => rfl
  have hr : ∀ k : Fin 128, ridx_main_v0 i k = ix2 k (colOf i) := fun k => funext fun a => by
    match a with | ⟨0, _⟩ => rfl | ⟨1, _⟩ => rfl
  have hb : idx_main_v1 (idx_main_v2 i) = ix1 (colOf i) := funext fun a => by
    match a with | ⟨0, _⟩ => rfl
  simp only [hl, hr, hb]
  rfl

/-- The protein projection: `x·W + b` over 50000 rows of 1024 features. -/
theorem linP_eq (x1 : FVec Ideal S50000x1024 .f32) (x10 : FVec Ideal S1024x128 .f32) (x11 : FVec Ideal S128 .f32) :
    Cert.Spec.linP x1 x10 x11 = val_main_v7 (F := Ideal) x1 x10 x11 := by
  funext i
  rw [val_main_v7_apply, val_main_v4_apply, val_main_v6_apply, val_main_v5_apply]
  unfold Cert.Spec.linP Cert.Spec.linAt
  have hl : ∀ k : Fin 1024, lidx_main_v4 i k = ix2 (rowOf i) k := fun k => funext fun a => by
    match a with | ⟨0, _⟩ => rfl | ⟨1, _⟩ => rfl
  have hr : ∀ k : Fin 1024, ridx_main_v4 i k = ix2 k (colOf i) := fun k => funext fun a => by
    match a with | ⟨0, _⟩ => rfl | ⟨1, _⟩ => rfl
  have hb : idx_main_v5 (idx_main_v6 i) = ix1 (colOf i) := funext fun a => by
    match a with | ⟨0, _⟩ => rfl
  simp only [hl, hr, hb]
  rfl

/-- The protein-side SAGE combination over the aggregated drug features and the projected protein features. -/
theorem sageP_eq (x0 : FVec Ideal S100000x128 .f32) (x1 : FVec Ideal S50000x1024 .f32) (x2 x3 : IVec S1000000 32)
    (x8 : FVec Ideal S128x128 .f32) (x9 : FVec Ideal S128 .f32) (x10 : FVec Ideal S1024x128 .f32) (x11 : FVec Ideal S128 .f32)
    (x12 : FVec Ideal S128x128 .f32) (x13 : FVec Ideal S128 .f32) (x14 : FVec Ideal S128x128 .f32) :
    Cert.Spec.sageP (val_main_v26 (F := Ideal) x0 x2 x3 x8 x9) (val_main_v7 (F := Ideal) x1 x10 x11) x12 x13 x14
      = val_main_v32 (F := Ideal) x0 x1 x2 x3 x8 x9 x10 x11 x12 x13 x14 := by
  funext i
  rw [val_main_v32_apply, val_main_v30_apply, val_main_v27_apply, val_main_v29_apply, val_main_v28_apply, val_main_v31_apply]
  unfold Cert.Spec.sageP Cert.Spec.sageAt
  have hl : ∀ k : Fin 128, lidx_main_v27 i k = ix2 (rowOf i) k := fun k => funext fun a => by
    match a with | ⟨0, _⟩ => rfl | ⟨1, _⟩ => rfl
  have hr : ∀ k : Fin 128, ridx_main_v27 i k = ix2 k (colOf i) := fun k => funext fun a => by
    match a with | ⟨0, _⟩ => rfl | ⟨1, _⟩ => rfl
  have hl' : ∀ k : Fin 128, lidx_main_v31 i k = ix2 (rowOf i) k := fun k => funext fun a => by
    match a with | ⟨0, _⟩ => rfl | ⟨1, _⟩ => rfl
  have hr' : ∀ k : Fin 128, ridx_main_v31 i k = ix2 k (colOf i) := fun k => funext fun a => by
    match a with | ⟨0, _⟩ => rfl | ⟨1, _⟩ => rfl
  have hb : idx_main_v28 (idx_main_v29 i) = ix1 (colOf i) := funext fun a => by
    match a with | ⟨0, _⟩ => rfl
  simp only [hl, hr, hl', hr', hb]
  rfl

/-- The drug-side SAGE combination over the aggregated protein features and the projected drug features. -/
theorem sageD_eq (x0 : FVec Ideal S100000x128 .f32) (x1 : FVec Ideal S50000x1024 .f32) (x4 x5 : IVec S1000000 32)
    (x8 : FVec Ideal S128x128 .f32) (x9 : FVec Ideal S128 .f32) (x10 : FVec Ideal S1024x128 .f32) (x11 : FVec Ideal S128 .f32)
    (x15 : FVec Ideal S128x128 .f32) (x16 : FVec Ideal S128 .f32) (x17 : FVec Ideal S128x128 .f32) :
    Cert.Spec.sageD (val_main_v51 (F := Ideal) x1 x4 x5 x10 x11) (val_main_v3 (F := Ideal) x0 x8 x9) x15 x16 x17
      = val_main_v57 (F := Ideal) x0 x1 x4 x5 x8 x9 x10 x11 x15 x16 x17 := by
  funext i
  rw [val_main_v57_apply, val_main_v55_apply, val_main_v52_apply, val_main_v54_apply, val_main_v53_apply, val_main_v56_apply]
  unfold Cert.Spec.sageD Cert.Spec.sageAt
  have hl : ∀ k : Fin 128, lidx_main_v52 i k = ix2 (rowOf i) k := fun k => funext fun a => by
    match a with | ⟨0, _⟩ => rfl | ⟨1, _⟩ => rfl
  have hr : ∀ k : Fin 128, ridx_main_v52 i k = ix2 k (colOf i) := fun k => funext fun a => by
    match a with | ⟨0, _⟩ => rfl | ⟨1, _⟩ => rfl
  have hl' : ∀ k : Fin 128, lidx_main_v56 i k = ix2 (rowOf i) k := fun k => funext fun a => by
    match a with | ⟨0, _⟩ => rfl | ⟨1, _⟩ => rfl
  have hr' : ∀ k : Fin 128, ridx_main_v56 i k = ix2 k (colOf i) := fun k => funext fun a => by
    match a with | ⟨0, _⟩ => rfl | ⟨1, _⟩ => rfl
  have hb : idx_main_v53 (idx_main_v54 i) = ix1 (colOf i) := funext fun a => by
    match a with | ⟨0, _⟩ => rfl
  simp only [hl, hr, hl', hr', hb]
  rfl

end Cert.ReferenceIdeal.RefIs

end
-- ==== Proof.MlpValue.lean ====
/-
  The kernel's half of the pair head: what the last pipelined region leaves in its output array.

  The region runs over 8 grid points. At point t the body reads rows 8192·t … 8192·t + 8191 of the two gathered
  feature arrays (blocks [8192, 128]) and the whole of the five parameter arrays, and stores one [8192, 1] block:
    out(p, 0) = (Σ_j max (((Σ_k xd(p, k) · W1d(k, j)) + Σ_k xp(p, k) · W1p(k, j)) + b1(j)) 0 · W2(j, 0)) + b2(0).
  On the extended reals every format change is the identity and a product into the zero accumulator is the plain
  finite sum, so this is the shared specification's entry for row 8192·t + p. The 8 blocks tile the 65536 rows, so
  the array ends holding the specification's function at every index.

  Steps: the two contractions read at an index (the contraction index re-indexed to the 128 positions); the body's
  arithmetic at an index; a block's entry against the array's entry; what a point writes back; the cover; the array.
-/
import proofs.«170178_j15101105013216_1_alg».proof.Proof.Gen.KernelIdeal.Frame
import proofs.«170178_j15101105013216_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.MlpValue

open Cert.KernelIdeal Cert.KernelIdeal.Gen Idealize.ShloMosaic Idealize.ShloMosaic.TcCoe Idealize.SL.Sem
open Idealize.ShloMosaic.ValueIdx
open Idealize.ShloMosaic.Pipeline (Dat)

/-! ## The two contractions' operand indices, coordinate by coordinate -/

theorem lhs1_0 (i : S8192x128.Idx) (q : dot_S8192x128_S128x128_S8192x128_1_0_0_1_n_n.contr.Idx) : (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs1_1 (i : S8192x128.Idx) (q : dot_S8192x128_S128x128_S8192x128_1_0_0_1_n_n.contr.Idx) : (dot_S8192x128_S128x128_S8192x128_1_0_0_1_n_n.lhsIdx i q 1).val = (q ⟨0, by decide⟩).val :=
  dot_S8192x128_S128x128_S8192x128_1_0_0_1_n_n.lhsIdx_val_of_single rfl i q
theorem rhs1_0 (i : S8192x128.Idx) (q : dot_S8192x128_S128x128_S8192x128_1_0_0_1_n_n.contr.Idx) : (dot_S8192x128_S128x128_S8192x128_1_0_0_1_n_n.rhsIdx i q 0).val = (q ⟨0, by decide⟩).val :=
  dot_S8192x128_S128x128_S8192x128_1_0_0_1_n_n.rhsIdx_val_of_single rfl i q
theorem rhs1_1 (i : S8192x128.Idx) (q : dot_S8192x128_S128x128_S8192x128_1_0_0_1_n_n.contr.Idx) : (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

theorem lhs2_0 (i : S8192x1.Idx) (q : dot_S8192x128_S128x1_S8192x1_1_0_0_1_n_n.contr.Idx) : (dot_S8192x128_S128x1_S8192x1_1_0_0_1_n_n.lhsIdx i q 0).val = (i 0).val := by
  unfold DotDims.lhsIdx
  rw [dif_neg (show ¬(0 : Fin S8192x128.rank) ∈ dot_S8192x128_S128x1_S8192x1_1_0_0_1_n_n.lhsBatch by decide), dif_pos (show (0 : Fin S8192x128.rank) ∈ dot_S8192x128_S128x1_S8192x1_1_0_0_1_n_n.lhsNonContracting by decide)]
  rfl
theorem lhs2_1 (i : S8192x1.Idx) (q : dot_S8192x128_S128x1_S8192x1_1_0_0_1_n_n.contr.Idx) : (dot_S8192x128_S128x1_S8192x1_1_0_0_1_n_n.lhsIdx i q 1).val = (q ⟨0, by decide⟩).val :=
  dot_S8192x128_S128x1_S8192x1_1_0_0_1_n_n.lhsIdx_val_of_single rfl i q
theorem rhs2_0 (i : S8192x1.Idx) (q : dot_S8192x128_S128x1_S8192x1_1_0_0_1_n_n.contr.Idx) : (dot_S8192x128_S128x1_S8192x1_1_0_0_1_n_n.rhsIdx i q 0).val = (q ⟨0, by decide⟩).val :=
  dot_S8192x128_S128x1_S8192x1_1_0_0_1_n_n.rhsIdx_val_of_single rfl i q
theorem rhs2_1 (i : S8192x1.Idx) (q : dot_S8192x128_S128x1_S8192x1_1_0_0_1_n_n.contr.Idx) : (dot_S8192x128_S128x1_S8192x1_1_0_0_1_n_n.rhsIdx i q 1).val = (i 1).val := by
  unfold DotDims.rhsIdx
  rw [dif_neg (show ¬(1 : Fin S128x1.rank) ∈ dot_S8192x128_S128x1_S8192x1_1_0_0_1_n_n.rhsBatch by decide), dif_pos (show (1 : Fin S128x1.rank) ∈ dot_S8192x128_S128x1_S8192x1_1_0_0_1_n_n.rhsNonContracting by decide)]
  rfl

/-! ## A product into the zero accumulator, read at an index: the sum over the 128 contracted positions -/

set_option maxHeartbeats 400000 in
/-- The [8192,128] × [128,128] product at (p, j) is the sum over k of lhs(p, k) · rhs(k, j). -/
theorem mm1_apply {φ₁ φ₂ : FTy} (lhs : FVec Ideal S8192x128 φ₁) (rhs : FVec Ideal S128x128 φ₂) (p : Fin 8192) (j : Fin 128) :
    matmul dot_S8192x128_S128x128_S8192x128_1_0_0_1_n_n none lhs rhs (constant S8192x128 .f32 0x00000000#32) (ix2 p j) = ∑ k : Fin 128, lhs (ix2 p k) * rhs (ix2 k j) := by
  refine (Ideal.matmul_constant_zero_apply dot_S8192x128_S128x128_S8192x128_1_0_0_1_n_n none lhs rhs (ix2 p j)).trans ?_
  rw [← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx (ix2 p j) ((ValueIdx.contrEquiv1 dot_S8192x128_S128x128_S8192x128_1_0_0_1_n_n 128 rfl rfl).symm k) = ix2 p k := funext fun a => Fin.ext (by
    match a with
    | ⟨0, _⟩ => exact lhs1_0 _ _
    | ⟨1, _⟩ => exact (lhs1_1 _ _).trans hk)
  have er : dot_S8192x128_S128x128_S8192x128_1_0_0_1_n_n.rhsIdx (ix2 p j) ((ValueIdx.contrEquiv1 dot_S8192x128_S128x128_S8192x128_1_0_0_1_n_n 128 rfl rfl).symm k) = ix2 k j := funext fun a => Fin.ext (by
    match a with
    | ⟨0, _⟩ => exact (rhs1_0 _ _).trans hk
    | ⟨1, _⟩ => exact rhs1_1 _ _)
  rw [el, er]

set_option maxHeartbeats 400000 in
/-- The [8192,128] × [128,1] product at (p, q) is the sum over j of lhs(p, j) · rhs(j, q). -/
theorem mm2_apply {φ₁ φ₂ : FTy} (lhs : FVec Ideal S8192x128 φ₁) (rhs : FVec Ideal S128x1 φ₂) (p : Fin 8192) (q : Fin 1) :
    matmul dot_S8192x128_S128x1_S8192x1_1_0_0_1_n_n none lhs rhs (constant S8192x1 .f32 0x00000000#32) (ix2 p q) = ∑ j : Fin 128, lhs (ix2 p j) * rhs (ix2 j q) := by
  refine (Ideal.matmul_constant_zero_apply dot_S8192x128_S128x1_S8192x1_1_0_0_1_n_n none lhs rhs (ix2 p q)).trans ?_
  rw [← Equiv.sum_comp (ValueIdx.contrEquiv1 dot_S8192x128_S128x1_S8192x1_1_0_0_1_n_n 128 rfl rfl).symm]
  refine Finset.sum_congr rfl fun k _ => ?_
  have hk := ValueIdx.contrEquiv1_symm_val dot_S8192x128_S128x1_S8192x1_1_0_0_1_n_n 128 rfl rfl k
  have el : dot_S8192x128_S128x1_S8192x1_1_0_0_1_n_n.lhsIdx (ix2 p q) ((ValueIdx.contrEquiv1 dot_S8192x128_S128x1_S8192x1_1_0_0_1_n_n 128 rfl rfl).symm k) = ix2 p k := funext fun a => Fin.ext (by
    match a with
    | ⟨0, _⟩ => exact lhs2_0 _ _
    | ⟨1, _⟩ => exact (lhs2_1 _ _).trans hk)
  have er : dot_S8192x128_S128x1_S8192x1_1_0_0_1_n_n.rhsIdx (ix2 p q) ((ValueIdx.contrEquiv1 dot_S8192x128_S128x1_S8192x1_1_0_0_1_n_n 128 rfl rfl).symm k) = ix2 k q := funext fun a => Fin.ext (by
    match a with
    | ⟨0, _⟩ => exact (rhs2_0 _ _).trans hk
    | ⟨1, _⟩ => exact rhs2_1 _ _)
  rw [el, er]

/-! ## The body's arithmetic at an index -/

set_option maxHeartbeats 400000 in
/-- What the body stores at row p of its block: the pair head's output for that row, as the shared specification spells it. -/
theorem pay_apply (x0 x1 : Vec Ideal S8192x128 .f32) (x2 x3 : Vec Ideal S128x128 .f32) (x4 : Vec Ideal S128 .f32)
    (x5 : Vec Ideal S128x1 .f32) (x6 : Vec Ideal S1 .f32) (p : Fin 8192) (q : Fin 1) :
    Gen.k4_pay1 x0 x1 x2 x3 x4 x5 x6 (ix2 p q)
      = Cert.Spec.mlpAt (M := 8192) (K := 128) (N := 128) (P := 1) x0 x1 x2 x3 x4 x5 x6 p q := by
  unfold Gen.k4_pay1 Cert.Spec.mlpAt
  rw [addf_apply]
  refine congrArg₂ (· + ·) ?_ ?_
  · refine (mm2_apply _ _ p q).trans ?_
    refine Finset.sum_congr rfl fun j _ => ?_
    refine congrArg₂ (· * ·) ?_ rfl
    unfold Cert.Spec.hidAt
    rw [truncf_apply, maximumf_apply, addf_apply, addf_apply, broadcast_apply]
    refine congrArg₂ max (congrArg₂ (· + ·) (congrArg₂ (· + ·) ?_ ?_) ?_) ?_
    · refine (mm1_apply _ _ p j).trans ?_
      rw [shapeCast_self, shapeCast_self]
      rfl
    · refine (mm1_apply _ _ p j).trans ?_
      rw [shapeCast_self, shapeCast_self]
      rfl
    · refine (broadcastTo_1b_ab_apply _ _ p j).trans ?_
      exact shapeCast_a_1a_apply x4 _ 0 j
    · exact Ideal.ofBits_zero_f32
  · refine (broadcastTo_1b_ab_apply _ _ p q).trans ?_
    exact shapeCast_a_1a_apply x6 _ 0 q

/-! ## From a block to the array -/

theorem hz2 : (![0, 0] : Fin 2 → Nat) = fun _ => 0 := funext fun a => by fin_cases a <;> rfl
theorem hz1 : (![0] : Fin 1 → Nat) = fun _ => 0 := funext fun a => by fin_cases a <;> rfl

/-- The body's result at row p of a block is the pair head's output at array index i, as soon as row p of the two
    feature blocks is row (i 0) of the two feature arrays and the five parameter blocks are the parameter arrays. -/
theorem mlp_block (A0 A1 : FVec Ideal S65536x128 .f32) (A2 A3 : FVec Ideal S128x128 .f32) (A4 : FVec Ideal S128 .f32)
    (A5 : FVec Ideal S128x1 .f32) (A6 : FVec Ideal S1 .f32)
    (x0 x1 : Vec Ideal S8192x128 .f32) (x2 x3 : Vec Ideal S128x128 .f32) (x4 : Vec Ideal S128 .f32)
    (x5 : Vec Ideal S128x1 .f32) (x6 : Vec Ideal S1 .f32)
    (p : Fin 8192) (q : Fin 1) (i : S65536x1.Idx)
    (h0 : ∀ k : Fin 128, x0 (ix2 p k) = A0 (ix2 (Cert.Spec.rowOf i) k))
    (h1 : ∀ k : Fin 128, x1 (ix2 p k) = A1 (ix2 (Cert.Spec.rowOf i) k))
    (h2 : x2 = A2) (h3 : x3 = A3) (h4 : x4 = A4) (h5 : x5 = A5) (h6 : x6 = A6) (hq : Cert.Spec.colOf i = q) :
    Gen.k4_pay1 x0 x1 x2 x3 x4 x5 x6 (ix2 p q) = Cert.Spec.mlp A0 A1 A2 A3 A4 A5 A6 i := by
  subst h2 h3 h4 h5 h6 hq
  rw [pay_apply]
  unfold Cert.Spec.mlp Cert.Spec.mlpAt Cert.Spec.hidAt
  simp only [h0, h1]

/-- The printed index maps, decided over the eight grid points: the two feature windows move with the output window
    along the rows and stay at column block 0; the five parameter windows stay at block 0 on every axis; the output
    window's row block is the point's number and its column block is 0. -/
theorem idx_facts : ∀ t : Fin cfg4.N,
    win4_0.index t (0 : Fin 2) = win4_7.index t (0 : Fin 2) ∧ win4_0.index t (1 : Fin 2) = 0
    ∧ win4_1.index t (0 : Fin 2) = win4_7.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0
    ∧ win4_6.index t (0 : Fin 1) = 0
    ∧ win4_7.index t (1 : Fin 2) = 0 ∧ win4_7.index t (0 : Fin 2) = t.val :=
  (by decide +kernel : ∀ t : Fin grid4.N, _)

section
variable (V : (c : Dev nD) → (b : Ref sig .tc) → Buf (Elt Ideal) ((c : Thread nD τ).loc b)) (c : Dev nD) (t : Fin cfg4.N)

set_option maxHeartbeats 400000 in
/-- WHAT POINT t WRITES BACK is block t of the pair head of the arrays as the region finds them. -/
theorem flushed_eq :
    (dat4 (F := Ideal) V c).flushed 7 t
      = ((cfg4.win 7).blk t).view.read (Elt Ideal)
          (Cert.Spec.mlp (V c main_v48) (V c main_v55) (V c main_v56) (V c main_v57) (V c main_arg19) (V c main_arg20) (V c main_arg21)) := by
  show (cfg4.win 7).cut (grid4.coords t) ((dat4 V c).after 7 t) = _
  rw [after4_7]
  unfold out4_7
  rw [View.canon_unit_zero hz2]
  simp only [View.ld_unit_zero (S := S8192x128) hz2, View.ld_unit_zero (S := S128x128) hz2, View.ld_unit_zero (S := S128) hz1,
    View.ld_unit_zero (S := S128x1) hz2, View.ld_unit_zero (S := S1) hz1]
  obtain ⟨e00, e01, e10, e11, e20, e21, e30, e31, e40, e50, e51, e60, e71, e70⟩ := idx_facts t
  funext j
  obtain ⟨p, q, rfl⟩ : ∃ (p : Fin 8192) (q : Fin 1), j = ix2 p q := ⟨j 0, j 1, eq_ix2 j⟩
  show Gen.k4_pay1 (iblk4 V c 0 t) (iblk4 V c 1 t) (iblk4 V c 2 t) (iblk4 V c 3 t) (iblk4 V c 4 t) (iblk4 V c 5 t) (iblk4 V c 6 t) (ix2 p q)
    = Cert.Spec.mlp (V c main_v48) (V c main_v55) (V c main_v56) (V c main_v57) (V c main_arg19) (V c main_arg20) (V c main_arg21)
        (((cfg4.win 7).blk t).view.emb (ix2 p q))
  refine mlp_block _ _ _ _ _ _ _ _ _ _ _ _ _ _ p q _ (fun k => ?_) (fun k => ?_) ?_ ?_ ?_ ?_ ?_ ?_
  · -- row p of the first feature block is row (block t, p) of the first feature array
    show V c main_v48 (((cfg4.win 0).blk t).view.emb (ix2 p k)) = _
    refine congrArg (V c main_v48) (funext fun a => Fin.ext ?_)
    match a with
    | ⟨0, _⟩ => show win4_0.index t (0 : Fin 2) * 8192 + 1 * p.val = win4_7.index t (0 : Fin 2) * 8192 + 1 * p.val; rw [e00]
    | ⟨1, _⟩ => show win4_0.index t (1 : Fin 2) * 128 + 1 * k.val = k.val; rw [e01]; omega
  · show V c main_v55 (((cfg4.win 1).blk t).view.emb (ix2 p k)) = _
    refine congrArg (V c main_v55) (funext fun a => Fin.ext ?_)
    match a with
    | ⟨0, _⟩ => show win4_1.index t (0 : Fin 2) * 8192 + 1 * p.val = win4_7.index t (0 : Fin 2) * 8192 + 1 * p.val; rw [e10]
    | ⟨1, _⟩ => show win4_1.index t (1 : Fin 2) * 128 + 1 * k.val = k.val; rw [e11]; omega
  · funext j
    show V c main_v56 (((cfg4.win 2).blk t).view.emb j) = V c main_v56 j
    refine congrArg (V c main_v56) (funext fun a => Fin.ext ?_)
    match a with
    | ⟨0, _⟩ => show win4_2.index t (0 : Fin 2) * 128 + 1 * (j 0).val = (j 0).val; rw [e20]; omega
    | ⟨1, _⟩ => show win4_2.index t (1 : Fin 2) * 128 + 1 * (j 1).val = (j 1).val; rw [e21]; omega
  · funext j
    show V c main_v57 (((cfg4.win 3).blk t).view.emb j) = V c main_v57 j
    refine congrArg (V c main_v57) (funext fun a => Fin.ext ?_)
    match a with
    | ⟨0, _⟩ => show win4_3.index t (0 : Fin 2) * 128 + 1 * (j 0).val = (j 0).val; rw [e30]; omega
    | ⟨1, _⟩ => show win4_3.index t (1 : Fin 2) * 128 + 1 * (j 1).val = (j 1).val; rw [e31]; omega
  · funext j
    show V c main_arg19 (((cfg4.win 4).blk t).view.emb j) = V c main_arg19 j
    refine congrArg (V c main_arg19) (funext fun a => Fin.ext ?_)
    match a with
    | ⟨0, _⟩ => show win4_4.index t (0 : Fin 1) * 128 + 1 * (j 0).val = (j 0).val; rw [e40]; omega
  · funext j
    show V c main_arg20 (((cfg4.win 5).blk t).view.emb j) = V c main_arg20 j
    refine congrArg (V c main_arg20) (funext fun a => Fin.ext ?_)
    match a with
    | ⟨0, _⟩ => show win4_5.index t (0 : Fin 2) * 128 + 1 * (j 0).val = (j 0).val; rw [e50]; omega
    | ⟨1, _⟩ => show win4_5.index t (1 : Fin 2) * 1 + 1 * (j 1).val = (j 1).val; rw [e51]; omega
  · funext j
    show V c main_arg21 (((cfg4.win 6).blk t).view.emb j) = V c main_arg21 j
    refine congrArg (V c main_arg21) (funext fun a => Fin.ext ?_)
    match a with
    | ⟨0, _⟩ => show win4_6.index t (0 : Fin 1) * 1 + 1 * (j 0).val = (j 0).val; rw [e60]; omega
  · -- the column of the array index under block coordinate (p, q) is q
    apply Fin.ext
    show win4_7.index t (1 : Fin 2) * 1 + 1 * q.val = q.val
    rw [e71]; omega

/-- An index of the output array is in point t's block iff each coordinate is in the block's range on its axis. -/
theorem mem_blk (i : S65536x1.Idx) :
    i ∈ ((cfg4.win 7).blk t).view.set ↔ ∀ a : Fin 2, win4_7.index t a * S8192x1.size a ≤ (i a).val ∧ (i a).val < win4_7.index t a * S8192x1.size a + S8192x1.size a := by
  show i ∈ ((View.whole main_v58).slice (win4_7.rect t)).set ↔ _
  rw [View.set_slice_whole, Rect.mem_set_unit]
  exact Iff.rfl

/-- Every row of the output array lies in some point's block: row r in the block of point r / 8192. -/
theorem cover (i : S65536x1.Idx) :
    ∃ t : Fin cfg4.N, (cfg4.win 7).flush t = true ∧ i ∈ ((cfg4.win 7).blk t).view.set := by
  have hi0 : (i 0).val < 65536 := (i 0).isLt
  have hi1 : (i 1).val < 1 := (i 1).isLt
  obtain ⟨t, ht⟩ : ∃ t : Fin cfg4.N, t.val = (i 0).val / 8192 := ⟨⟨(i 0).val / 8192, by show _ < grid4.N; rw [N_4]; omega⟩, rfl⟩
  obtain ⟨-, -, -, -, -, -, -, -, -, -, -, -, e71, e70⟩ := idx_facts t
  refine ⟨t, flush4_7 t, ?_⟩
  rw [mem_blk]
  intro a
  match a with
  | ⟨0, _⟩ =>
    show win4_7.index t (0 : Fin 2) * 8192 ≤ (i 0).val ∧ (i 0).val < win4_7.index t (0 : Fin 2) * 8192 + 8192
    rw [e70, ht]; omega
  | ⟨1, _⟩ =>
    show win4_7.index t (1 : Fin 2) * 1 ≤ (i 1).val ∧ (i 1).val < win4_7.index t (1 : Fin 2) * 1 + 1
    rw [e71]; omega

/-- THE OUTPUT ARRAY after the region: the pair head of the arrays as the region finds them, at every index. -/
theorem arr :
    (Gen.dat4 (F := Ideal) V c).arrAt 7 cfg4.N
      = Cert.Spec.mlp (V c main_v48) (V c main_v55) (V c main_v56) (V c main_v57) (V c main_arg19) (V c main_arg20) (V c main_arg21) :=
  (dat4 (F := Ideal) V c).arrAt_eq_of_cover 7 _ (fun t _ => flushed_eq V c t) cover
end

end Cert.KernelIdeal.MlpValue

end
-- ==== Proof.MlpRef.lean ====
/-
  The reference's pair head, read index by index.

  The reference joins the two gathered feature rows side by side into one row of 256 features,
  multiplies it by the whole first weight matrix, adds the bias, clamps at zero from below and applies
  the second layer.  A sum over 256 indices is the sum over the first 128 plus the sum over the last
  128.  On the first 128 the joined row is the first piece and the weight rows are the upper half of
  the matrix; on the last 128 the joined row is the second piece and the weight rows are the lower half:
    Σ_{k<256} cat(r, k) · W1(k, j) = (Σ_{k<128} xd(r, k) · W1(k, j)) + Σ_{k<128} xp(r, k) · W1(128 + k, j).
  That is the specification's sum of two products.  Every other layer is read at an index as it stands.
  Only the commutative-monoid structure of the extended reals is used, so nothing asks the inputs to
  be finite.
-/
import proofs.«170178_j15101105013216_1_alg».proof.Proof.Gen.ReferenceIdeal.Read
import proofs.«170178_j15101105013216_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.MlpRef

open Cert.ReferenceIdeal Cert.ReferenceIdeal.Gen Idealize.ShloMosaic Idealize.ShloMosaic.TcCoe Idealize.SL.Sem Idealize.ShloMosaic.StableHlo
open Idealize.ShloMosaic.ValueIdx

/-- Position `k` of the first half of the 256 joined features. -/
abbrev lo (k : Fin 128) : Fin 256 := ⟨k.val, by omega⟩
/-- Position `128 + k` of the second half of the 256 joined features. -/
abbrev hi (k : Fin 128) : Fin 256 := ⟨128 + k.val, by omega⟩

/-- A sum over 256 indices is the sum over the first 128 plus the sum over the last 128. -/
theorem sum_split {M : Type} [AddCommMonoid M] (g : Fin 256 → M) :
    ∑ k : Fin 256, g k = (∑ k : Fin 128, g (lo k)) + ∑ k : Fin 128, g (hi k) :=
  Fin.sum_univ_add (a := 128) (b := 128) g

/-- The first layer's product at row `r`, column `q`: the sum over the 256 joined features. -/
theorem dot1_apply (y : FVec Ideal S65536x256 .f32) (w : FVec Ideal S256x128 .f32) (r : Fin 65536) (q : Fin 128) :
    Host.dotGeneral (F := Ideal) dot_S65536x256_S256x128_S65536x128_1_0_0_1_n_n none y w (ix2 r q) = ∑ k : Fin 256, y (ix2 r k) * w (ix2 k q) := by
  simp only [Host.dotGeneral]
  rw [Ideal.dotGeneral_apply, ← Equiv.sum_comp (ValueIdx.contrEquiv1 dot_S65536x256_S256x128_S65536x128_1_0_0_1_n_n 256 rfl rfl).symm]
  refine Finset.sum_congr rfl fun k _ => ?_
  have hk := ValueIdx.contrEquiv1_symm_val dot_S65536x256_S256x128_S65536x128_1_0_0_1_n_n 256 rfl rfl k
  have el : dot_S65536x256_S256x128_S65536x128_1_0_0_1_n_n.lhsIdx (ix2 r q) ((ValueIdx.contrEquiv1 dot_S65536x256_S256x128_S65536x128_1_0_0_1_n_n 256 rfl rfl).symm k) = ix2 r k := funext fun a => Fin.ext (by
    match a with
    | ⟨0, _⟩ => exact Read.lhs_main_v73_0 _ _
    | ⟨1, _⟩ => exact (Read.lhs_main_v73_1 _ _).trans hk)
  have er : dot_S65536x256_S256x128_S65536x128_1_0_0_1_n_n.rhsIdx (ix2 r q) ((ValueIdx.contrEquiv1 dot_S65536x256_S256x128_S65536x128_1_0_0_1_n_n 256 rfl rfl).symm k) = ix2 k q := funext fun a => Fin.ext (by
    match a with
    | ⟨0, _⟩ => exact (Read.rhs_main_v73_0 _ _).trans hk
    | ⟨1, _⟩ => exact Read.rhs_main_v73_1 _ _)
  rw [el, er]

/-- The second layer's product at row `r`, column `p`: the sum over the 128 hidden units. -/
theorem dot2_apply (y : FVec Ideal S65536x128 .f32) (w : FVec Ideal S128x1 .f32) (r : Fin 65536) (p : Fin 1) :
    Host.dotGeneral (F := Ideal) dot_S65536x128_S128x1_S65536x1_1_0_0_1_n_n none y w (ix2 r p) = ∑ j : Fin 128, y (ix2 r j) * w (ix2 j p) := by
  simp only [Host.dotGeneral]
  rw [Ideal.dotGeneral_apply, ← Equiv.sum_comp (ValueIdx.contrEquiv1 dot_S65536x128_S128x1_S65536x1_1_0_0_1_n_n 128 rfl rfl).symm]
  refine Finset.sum_congr rfl fun k _ => ?_
  have hk := ValueIdx.contrEquiv1_symm_val dot_S65536x128_S128x1_S65536x1_1_0_0_1_n_n 128 rfl rfl k
  have el : dot_S65536x128_S128x1_S65536x1_1_0_0_1_n_n.lhsIdx (ix2 r p) ((ValueIdx.contrEquiv1 dot_S65536x128_S128x1_S65536x1_1_0_0_1_n_n 128 rfl rfl).symm k) = ix2 r k := funext fun a => Fin.ext (by
    match a with
    | ⟨0, _⟩ => exact Read.lhs_main_v78_0 _ _
    | ⟨1, _⟩ => exact (Read.lhs_main_v78_1 _ _).trans hk)
  have er : dot_S65536x128_S128x1_S65536x1_1_0_0_1_n_n.rhsIdx (ix2 r p) ((ValueIdx.contrEquiv1 dot_S65536x128_S128x1_S65536x1_1_0_0_1_n_n 128 rfl rfl).symm k) = ix2 k p := funext fun a => Fin.ext (by
    match a with
    | ⟨0, _⟩ => exact (Read.rhs_main_v78_0 _ _).trans hk
    | ⟨1, _⟩ => exact Read.rhs_main_v78_1 _ _)
  rw [el, er]

/-- The joined row at a position of its first half is the first piece at that position. -/
theorem cat_lo (xd xp : FVec Ideal S65536x128 .f32) (r : Fin 65536) (k : Fin 128) :
    concatenate S65536x256 1 [⟨S65536x128, xd⟩, ⟨S65536x128, xp⟩] concatenates_S65536x128_S65536x128_S65536x256_d1 (ix2 r (lo k)) = xd (ix2 r k) :=
  concatenate_pair_apply_left (t := S65536x256) (s₁ := S65536x128) (s₂ := S65536x128) (1 : Fin 2) xd xp
    concatenates_S65536x128_S65536x128_S65536x256_d1 (ix2 r (lo k)) rfl (ix2 r k) (by
      intro b
      match b with
      | ⟨0, _⟩ => rfl
      | ⟨1, _⟩ => rfl)

/-- The joined row at a position of its second half is the second piece at that position less 128. -/
theorem cat_hi (xd xp : FVec Ideal S65536x128 .f32) (r : Fin 65536) (k : Fin 128) :
    concatenate S65536x256 1 [⟨S65536x128, xd⟩, ⟨S65536x128, xp⟩] concatenates_S65536x128_S65536x128_S65536x256_d1 (ix2 r (hi k)) = xp (ix2 r k) :=
  concatenate_pair_apply_right (t := S65536x256) (s₁ := S65536x128) (s₂ := S65536x128) (1 : Fin 2) xd xp
    concatenates_S65536x128_S65536x128_S65536x256_d1 (ix2 r (hi k)) rfl rfl (ix2 r k) (by
      intro b hb
      match b with
      | ⟨0, _⟩ => rfl
      | ⟨1, _⟩ => exact absurd rfl hb) (by
      show k.val + 128 = 128 + k.val; omega)

/-- The upper half of the first weight matrix at `(k, q)` is the matrix at `(k, q)`. -/
theorem slice_lo (a18 : FVec Ideal S256x128 .f32) (h0 : Cert.KernelIdeal.S256x128.Slices ![0, 0] Cert.KernelIdeal.S128x128) (k q : Fin 128) :
    extractStridedSlice Cert.KernelIdeal.S128x128 ![0, 0] a18 h0 (ix2 k q) = a18 (ix2 (lo k) q) :=
  extractStridedSlice_apply _ a18 h0 (ix2 k q) (ix2 (lo k) q) (by
    intro a
    match a with
    | ⟨0, _⟩ => show k.val = 0 + k.val; omega
    | ⟨1, _⟩ => show q.val = 0 + q.val; omega)

/-- The lower half of the first weight matrix at `(k, q)` is the matrix at `(128 + k, q)`. -/
theorem slice_hi (a18 : FVec Ideal S256x128 .f32) (h1 : Cert.KernelIdeal.S256x128.Slices ![128, 0] Cert.KernelIdeal.S128x128) (k q : Fin 128) :
    extractStridedSlice Cert.KernelIdeal.S128x128 ![128, 0] a18 h1 (ix2 k q) = a18 (ix2 (hi k) q) :=
  extractStridedSlice_apply _ a18 h1 (ix2 k q) (ix2 (hi k) q) (by
    intro a
    match a with
    | ⟨0, _⟩ => show 128 + k.val = 128 + k.val; rfl
    | ⟨1, _⟩ => show q.val = 0 + q.val; omega)

/-- The first bias, spread over the rows, at `(r, q)` is the bias at `q`. -/
theorem bias1_apply (a19 : FVec Ideal S128 .f32) (r : Fin 65536) (q : Fin 128) :
    broadcastInDim S65536x128 ![0, 1] bcast_S1x128_S65536x128_0_1 (broadcastInDim S1x128 ![1] bcast_S128_S1x128_1 a19) (ix2 r q) = a19 (ix1 q) :=
  (Read.val_main_v75_apply (F := Ideal) a19 (ix2 r q)).trans ((Read.val_main_v74_apply (F := Ideal) a19 _).trans
    (congrArg a19 (funext fun a => by match a with | ⟨0, _⟩ => rfl)))

/-- The second bias, spread over the rows, at `(r, p)` is the bias at `p`. -/
theorem bias2_apply (a21 : FVec Ideal S1 .f32) (r : Fin 65536) (p : Fin 1) :
    broadcastInDim S65536x1 ![0, 1] bcast_S1x1_S65536x1_0_1 (broadcastInDim S1x1 ![1] bcast_S1_S1x1_1 a21) (ix2 r p) = a21 (ix1 p) :=
  (Read.val_main_v80_apply (F := Ideal) a21 (ix2 r p)).trans ((Read.val_main_v79_apply (F := Ideal) a21 _).trans
    (congrArg a21 (funext fun a => by match a with | ⟨0, _⟩ => exact Fin.ext (by have := p.isLt; show 0 = p.val; omega))))

/-- The clamp's constant, spread over the array, is zero everywhere. -/
theorem zero_apply (i : S65536x128.Idx) :
    broadcastInDim S65536x128 ![] bcast_S_S65536x128 (constant (F := Ideal) S_ .f32 0x00000000#32) i = (0 : EReal) :=
  (Read.val_main_call0_v0_apply (F := Ideal) i).trans ((Read.val_main_call0_cst_apply (F := Ideal) _).trans Ideal.ofBits_zero_f32)

/-- One hidden unit of the reference: the joined row against the whole first weight matrix, plus the
    bias, clamped at zero, is the specification's hidden unit on the two halves of the matrix. -/
theorem hid_apply (xd xp : FVec Ideal S65536x128 .f32) (a18 : FVec Ideal S256x128 .f32) (a19 : FVec Ideal S128 .f32)
    (h0 : Cert.KernelIdeal.S256x128.Slices ![0, 0] Cert.KernelIdeal.S128x128) (h1 : Cert.KernelIdeal.S256x128.Slices ![128, 0] Cert.KernelIdeal.S128x128) (r : Fin 65536) (j : Fin 128) :
    maximumf (F := Ideal) (addf (F := Ideal) (Host.dotGeneral (F := Ideal) dot_S65536x256_S256x128_S65536x128_1_0_0_1_n_n none (concatenate S65536x256 1 [⟨S65536x128, xd⟩, ⟨S65536x128, xp⟩] concatenates_S65536x128_S65536x128_S65536x256_d1) a18) (broadcastInDim S65536x128 ![0, 1] bcast_S1x128_S65536x128_0_1 (broadcastInDim S1x128 ![1] bcast_S128_S1x128_1 a19))) (broadcastInDim S65536x128 ![] bcast_S_S65536x128 (constant (F := Ideal) S_ .f32 0x00000000#32)) (ix2 r j)
      = Cert.Spec.hidAt (M := 65536) (K := 128) (N := 128) xd xp (extractStridedSlice Cert.KernelIdeal.S128x128 ![0, 0] a18 h0) (extractStridedSlice Cert.KernelIdeal.S128x128 ![128, 0] a18 h1) a19 r j := by
  unfold Cert.Spec.hidAt
  refine (maximumf_apply _ _ _).trans ?_
  refine congrArg₂ max ?_ (zero_apply _)
  refine (addf_apply _ _ _).trans ?_
  refine congrArg₂ (· + ·) ?_ (bias1_apply a19 r j)
  refine (dot1_apply _ a18 r j).trans ?_
  refine (sum_split _).trans ?_
  refine congrArg₂ (· + ·) (Finset.sum_congr rfl fun k _ => ?_) (Finset.sum_congr rfl fun k _ => ?_)
  · exact congrArg₂ (· * ·) (cat_lo xd xp r k) (slice_lo a18 h0 k j).symm
  · exact congrArg₂ (· * ·) (cat_hi xd xp r k) (slice_hi a18 h1 k j).symm

/-- The reference's pair head before its final reshape is the specification's pair head on the two
    halves of the first weight matrix. -/
theorem tail_eq (xd xp : FVec Ideal S65536x128 .f32) (a18 : FVec Ideal S256x128 .f32) (a19 : FVec Ideal S128 .f32)
    (a20 : FVec Ideal S128x1 .f32) (a21 : FVec Ideal S1 .f32) (h0 : Cert.KernelIdeal.S256x128.Slices ![0, 0] Cert.KernelIdeal.S128x128) (h1 : Cert.KernelIdeal.S256x128.Slices ![128, 0] Cert.KernelIdeal.S128x128) :
    addf (F := Ideal) (Host.dotGeneral (F := Ideal) dot_S65536x128_S128x1_S65536x1_1_0_0_1_n_n none (maximumf (F := Ideal) (addf (F := Ideal) (Host.dotGeneral (F := Ideal) dot_S65536x256_S256x128_S65536x128_1_0_0_1_n_n none (concatenate S65536x256 1 [⟨S65536x128, xd⟩, ⟨S65536x128, xp⟩] concatenates_S65536x128_S65536x128_S65536x256_d1) a18) (broadcastInDim S65536x128 ![0, 1] bcast_S1x128_S65536x128_0_1 (broadcastInDim S1x128 ![1] bcast_S128_S1x128_1 a19))) (broadcastInDim S65536x128 ![] bcast_S_S65536x128 (constant (F := Ideal) S_ .f32 0x00000000#32))) a20) (broadcastInDim S65536x1 ![0, 1] bcast_S1x1_S65536x1_0_1 (broadcastInDim S1x1 ![1] bcast_S1_S1x1_1 a21))
      = Cert.Spec.mlp xd xp (extractStridedSlice Cert.KernelIdeal.S128x128 ![0, 0] a18 h0) (extractStridedSlice Cert.KernelIdeal.S128x128 ![128, 0] a18 h1) a19 a20 a21 := by
  funext i
  obtain ⟨r, p, rfl⟩ : ∃ (r : Fin 65536) (p : Fin 1), i = ix2 r p := ⟨i 0, i 1, eq_ix2 i⟩
  show _ = Cert.Spec.mlpAt (M := 65536) (K := 128) (N := 128) (P := 1) xd xp (extractStridedSlice Cert.KernelIdeal.S128x128 ![0, 0] a18 h0) (extractStridedSlice Cert.KernelIdeal.S128x128 ![128, 0] a18 h1) a19 a20 a21 r p
  unfold Cert.Spec.mlpAt
  refine (addf_apply _ _ _).trans ?_
  refine congrArg₂ (· + ·) ?_ (bias2_apply a21 r p)
  refine (dot2_apply _ a20 r p).trans ?_
  exact Finset.sum_congr rfl fun j _ => congrArg (· * a20 (ix2 j p)) (hid_apply xd xp a18 a19 h0 h1 r j)

/-- The same with the final reshape applied to both sides. -/
theorem tail_reshape_eq (xd xp : FVec Ideal S65536x128 .f32) (a18 : FVec Ideal S256x128 .f32) (a19 : FVec Ideal S128 .f32)
    (a20 : FVec Ideal S128x1 .f32) (a21 : FVec Ideal S1 .f32) (h0 : Cert.KernelIdeal.S256x128.Slices ![0, 0] Cert.KernelIdeal.S128x128) (h1 : Cert.KernelIdeal.S256x128.Slices ![128, 0] Cert.KernelIdeal.S128x128) :
    shapeCast S65536 (addf (F := Ideal) (Host.dotGeneral (F := Ideal) dot_S65536x128_S128x1_S65536x1_1_0_0_1_n_n none (maximumf (F := Ideal) (addf (F := Ideal) (Host.dotGeneral (F := Ideal) dot_S65536x256_S256x128_S65536x128_1_0_0_1_n_n none (concatenate S65536x256 1 [⟨S65536x128, xd⟩, ⟨S65536x128, xp⟩] concatenates_S65536x128_S65536x128_S65536x256_d1) a18) (broadcastInDim S65536x128 ![0, 1] bcast_S1x128_S65536x128_0_1 (broadcastInDim S1x128 ![1] bcast_S128_S1x128_1 a19))) (broadcastInDim S65536x128 ![] bcast_S_S65536x128 (constant (F := Ideal) S_ .f32 0x00000000#32))) a20) (broadcastInDim S65536x1 ![0, 1] bcast_S1x1_S65536x1_0_1 (broadcastInDim S1x1 ![1] bcast_S1_S1x1_1 a21))) shapeCasts_S65536x1_S65536
      = shapeCast S65536 (Cert.Spec.mlp xd xp (extractStridedSlice Cert.KernelIdeal.S128x128 ![0, 0] a18 h0) (extractStridedSlice Cert.KernelIdeal.S128x128 ![128, 0] a18 h1) a19 a20 a21) shapeCasts_S65536x1_S65536 :=
  congrArg (fun v => shapeCast S65536 v shapeCasts_S65536x1_S65536) (tail_eq xd xp a18 a19 a20 a21 h0 h1)

/-- The reference's stage before its final reshape, as a function of the program's arguments, is the
    specification's pair head on the two gathered feature arrays. -/
theorem val81_eq (x0 : (⟨S100000x128, .f32⟩ : BufTy).Contents (Elt Ideal)) (x1 : (⟨S50000x1024, .f32⟩ : BufTy).Contents (Elt Ideal)) (x2 x3 x4 x5 : (⟨S1000000, .i32⟩ : BufTy).Contents (Elt Ideal)) (x6 x7 : (⟨S65536, .i32⟩ : BufTy).Contents (Elt Ideal)) (x8 : (⟨S128x128, .f32⟩ : BufTy).Contents (Elt Ideal)) (x9 : (⟨S128, .f32⟩ : BufTy).Contents (Elt Ideal)) (x10 : (⟨S1024x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S256x128, .f32⟩ : BufTy).Contents (Elt Ideal)) (x19 : (⟨S128, .f32⟩ : BufTy).Contents (Elt Ideal)) (x20 : (⟨S128x1, .f32⟩ : BufTy).Contents (Elt Ideal)) (x21 : (⟨S1, .f32⟩ : BufTy).Contents (Elt Ideal))
    (h0 : Cert.KernelIdeal.S256x128.Slices ![0, 0] Cert.KernelIdeal.S128x128) (h1 : Cert.KernelIdeal.S256x128.Slices ![128, 0] Cert.KernelIdeal.S128x128) :
    Read.val_main_v81 (F := Ideal) x0 x1 x2 x3 x4 x5 x6 x7 x8 x9 x10 x11 x12 x13 x14 x15 x16 x17 x18 x19 x20 x21
      = Cert.Spec.mlp (Read.val_main_v64 (F := Ideal) x0 x1 x4 x5 x6 x8 x9 x10 x11 x15 x16 x17) (Read.val_main_v71 (F := Ideal) x0 x1 x2 x3 x7 x8 x9 x10 x11 x12 x13 x14)
          (extractStridedSlice Cert.KernelIdeal.S128x128 ![0, 0] x18 h0) (extractStridedSlice Cert.KernelIdeal.S128x128 ![128, 0] x18 h1) x19 x20 x21 :=
  tail_eq (Read.val_main_v64 (F := Ideal) x0 x1 x4 x5 x6 x8 x9 x10 x11 x15 x16 x17) (Read.val_main_v71 (F := Ideal) x0 x1 x2 x3 x7 x8 x9 x10 x11 x12 x13 x14) x18 x19 x20 x21 h0 h1

/-- The reference's result at an index `i`, as a function of the program's arguments: the
    specification's pair head at row `i`, its one column. -/
theorem val82_apply (x0 : (⟨S100000x128, .f32⟩ : BufTy).Contents (Elt Ideal)) (x1 : (⟨S50000x1024, .f32⟩ : BufTy).Contents (Elt Ideal)) (x2 x3 x4 x5 : (⟨S1000000, .i32⟩ : BufTy).Contents (Elt Ideal)) (x6 x7 : (⟨S65536, .i32⟩ : BufTy).Contents (Elt Ideal)) (x8 : (⟨S128x128, .f32⟩ : BufTy).Contents (Elt Ideal)) (x9 : (⟨S128, .f32⟩ : BufTy).Contents (Elt Ideal)) (x10 : (⟨S1024x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S256x128, .f32⟩ : BufTy).Contents (Elt Ideal)) (x19 : (⟨S128, .f32⟩ : BufTy).Contents (Elt Ideal)) (x20 : (⟨S128x1, .f32⟩ : BufTy).Contents (Elt Ideal)) (x21 : (⟨S1, .f32⟩ : BufTy).Contents (Elt Ideal))
    (h0 : Cert.KernelIdeal.S256x128.Slices ![0, 0] Cert.KernelIdeal.S128x128) (h1 : Cert.KernelIdeal.S256x128.Slices ![128, 0] Cert.KernelIdeal.S128x128) (i : S65536.Idx) :
    Read.val_main_v82 (F := Ideal) x0 x1 x2 x3 x4 x5 x6 x7 x8 x9 x10 x11 x12 x13 x14 x15 x16 x17 x18 x19 x20 x21 i
      = Cert.Spec.mlpAt (M := 65536) (K := 128) (N := 128) (P := 1) (Read.val_main_v64 (F := Ideal) x0 x1 x4 x5 x6 x8 x9 x10 x11 x15 x16 x17) (Read.val_main_v71 (F := Ideal) x0 x1 x2 x3 x7 x8 x9 x10 x11 x12 x13 x14)
          (extractStridedSlice Cert.KernelIdeal.S128x128 ![0, 0] x18 h0) (extractStridedSlice Cert.KernelIdeal.S128x128 ![128, 0] x18 h1) x19 x20 x21
          ⟨(i 0).val, (i 0).isLt⟩ 0 := by
  refine (Read.val_main_v82_apply (F := Ideal) x0 x1 x2 x3 x4 x5 x6 x7 x8 x9 x10 x11 x12 x13 x14 x15 x16 x17 x18 x19 x20 x21 i).trans ?_
  refine (congrFun (val81_eq x0 x1 x2 x3 x4 x5 x6 x7 x8 x9 x10 x11 x12 x13 x14 x15 x16 x17 x18 x19 x20 x21 h0 h1) (Read.idx_main_v82 i)).trans ?_
  show Cert.Spec.mlpAt (M := 65536) (K := 128) (N := 128) (P := 1) _ _ _ _ x19 x20 x21 (Cert.Spec.rowOf (Read.idx_main_v82 i)) (Cert.Spec.colOf (Read.idx_main_v82 i)) = _
  have e1 : Cert.Spec.rowOf (Read.idx_main_v82 i) = ⟨(i 0).val, (i 0).isLt⟩ := Fin.ext (Nat.div_one _)
  have e2 : Cert.Spec.colOf (Read.idx_main_v82 i) = (0 : Fin 1) := rfl
  rw [e1, e2]

end Cert.ReferenceIdeal.MlpRef

end
-- ==== Proof.Walk.lean ====
/-
  The idealized kernel's result, read back along its run.

  The program's buffers at each boundary between a pipelined region and a stretch of host operations are a
  chain: a region replaces its own arrays by what its write-backs leave and keeps every other buffer; a
  host stretch applies its operations in order.  Walking that chain from the launch:
    * the two projection regions leave `x·W + b` in their output arrays;
    * the first host stretch aggregates the projected drug features over the drug→protein edges (gather,
      scatter-add, count, maximum with one, division) — literally the reference's operations, so the value is
      the reference's stage of the same name applied to the same operands, and it is never opened;
    * the first SAGE region leaves `agg·Wl + bl + xp·Wr`; the second stretch and region are the mirror image;
    * the third stretch gathers the two rows of every pair and cuts the first head weight in two halves;
    * the head region leaves `relu(xd·W1[:128] + xp·W1[128:] + b1)·W2 + b2`, which is the reference's
      `relu(concat(xd, xp)·W1 + b1)·W2 + b2`: a sum over 256 positions splits into its two halves;
    * the last host operation reshapes [65536, 1] to [65536].
  Every argument buffer is read back unchanged at the boundary where it is used, because no region writes it
  and no host operation names it as its result.
-/
import proofs.«170178_j15101105013216_1_alg».proof.Proof.Gen.KernelIdeal.Frame
import proofs.«170178_j15101105013216_1_alg».proof.Proof.Gen.ReferenceIdeal.Read
import proofs.«170178_j15101105013216_1_alg».proof.Proof.LinDValue
import proofs.«170178_j15101105013216_1_alg».proof.Proof.LinPValue
import proofs.«170178_j15101105013216_1_alg».proof.Proof.SagePValue
import proofs.«170178_j15101105013216_1_alg».proof.Proof.SageDValue
import proofs.«170178_j15101105013216_1_alg».proof.Proof.RefIs
import proofs.«170178_j15101105013216_1_alg».proof.Proof.MlpValue
import proofs.«170178_j15101105013216_1_alg».proof.Proof.MlpRef
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer that a host stretch does not write keeps its contents across the stretch. -/
macro "host_untouched " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## Up to the first SAGE region -/

theorem v0_1 : W1 m ρ c (Proc.devRef .tc main_v0) = Cert.ReferenceIdeal.Read.val_main_v3 (F := Ideal) (m ((c : Thread nD τ).loc main_arg0)) (m ((c : Thread nD τ).loc main_arg8)) (m ((c : Thread nD τ).loc main_arg9)) :=
  (W1_arr m ρ c 3).trans ((LinDValue.arr (V0 m ρ) c).trans (Cert.ReferenceIdeal.RefIs.linD_eq _ _ _))

theorem a1_1 : V1 m ρ c main_arg1 = (m ((c : Thread nD τ).loc main_arg1)) := W1_of_ne m ρ c main_arg1 (by decide)
theorem a10_1 : V1 m ρ c main_arg10 = (m ((c : Thread nD τ).loc main_arg10)) := W1_of_ne m ρ c main_arg10 (by decide)
theorem a11_1 : V1 m ρ c main_arg11 = (m ((c : Thread nD τ).loc main_arg11)) := W1_of_ne m ρ c main_arg11 (by decide)

theorem v1_2 : W2 m ρ c (Proc.devRef .tc main_v1) = Cert.ReferenceIdeal.Read.val_main_v7 (F := Ideal) (m ((c : Thread nD τ).loc main_arg1)) (m ((c : Thread nD τ).loc main_arg10)) (m ((c : Thread nD τ).loc main_arg11)) :=
  (W2_arr m ρ c 3).trans ((LinPValue.arr (V1 m ρ) c).trans (by
    rw [a1_1, a10_1, a11_1]; exact Cert.ReferenceIdeal.RefIs.linP_eq _ _ _))

theorem v0_2 : W2 m ρ c (Proc.devRef .tc main_v0) = Cert.ReferenceIdeal.Read.val_main_v3 (F := Ideal) (m ((c : Thread nD τ).loc main_arg0)) (m ((c : Thread nD τ).loc main_arg8)) (m ((c : Thread nD τ).loc main_arg9)) :=
  (W2_of_ne m ρ c main_v0 (by decide)).trans (v0_1 m ρ c)
theorem a2_2 : W2 m ρ c (Proc.devRef .tc main_arg2) = (m ((c : Thread nD τ).loc main_arg2)) :=
  (W2_of_ne m ρ c main_arg2 (by decide)).trans (W1_of_ne m ρ c main_arg2 (by decide))
theorem a3_2 : W2 m ρ c (Proc.devRef .tc main_arg3) = (m ((c : Thread nD τ).loc main_arg3)) :=
  (W2_of_ne m ρ c main_arg3 (by decide)).trans (W1_of_ne m ρ c main_arg3 (by decide))

set_option maxHeartbeats 2000000 in
/-- The aggregated drug features at the first SAGE region's entry: the host's gather, scatter-add, count, maximum with one and
    division, applied to the projected drug features and the two edge-index arrays — the reference's own operations. -/
theorem v20_3 : V3 m ρ c main_v20 = Cert.ReferenceIdeal.Read.val_main_v26 (F := Ideal) (m ((c : Thread nD τ).loc main_arg0)) (m ((c : Thread nD τ).loc main_arg2)) (m ((c : Thread nD τ).loc main_arg3)) (m ((c : Thread nD τ).loc main_arg8)) (m ((c : Thread nD τ).loc main_arg9)) := by
  show StableHlo.after hostOps2 (W2 m ρ c) (Proc.devRef .tc main_v20) = _
  dsimp only [hostOps2]
  after_results
  rw [v0_2, a2_2, a3_2]
  simp only [Cert.ReferenceIdeal.Read.val_main_c, Cert.ReferenceIdeal.Read.val_main_v8, Cert.ReferenceIdeal.Read.val_main_v9, Cert.ReferenceIdeal.Read.val_main_c_0, Cert.ReferenceIdeal.Read.val_main_v10, Cert.ReferenceIdeal.Read.val_main_v11, Cert.ReferenceIdeal.Read.val_main_v12, Cert.ReferenceIdeal.Read.val_main_v13, Cert.ReferenceIdeal.Read.val_main_v14, Cert.ReferenceIdeal.Read.val_main_cst, Cert.ReferenceIdeal.Read.val_main_v15, Cert.ReferenceIdeal.Read.val_main_v16, Cert.ReferenceIdeal.Read.val_main_v17, Cert.ReferenceIdeal.Read.val_main_cst_1, Cert.ReferenceIdeal.Read.val_main_v18, Cert.ReferenceIdeal.Read.val_main_cst_2, Cert.ReferenceIdeal.Read.val_main_v19, Cert.ReferenceIdeal.Read.val_main_v20, Cert.ReferenceIdeal.Read.val_main_v21, Cert.ReferenceIdeal.Read.val_main_cst_3, Cert.ReferenceIdeal.Read.val_main_v22, Cert.ReferenceIdeal.Read.val_main_v23, Cert.ReferenceIdeal.Read.val_main_v24, Cert.ReferenceIdeal.Read.val_main_v25, Cert.ReferenceIdeal.Read.val_main_v26]
  rfl

/-! ## The first SAGE region, the second host stretch, the second SAGE region -/

theorem v1_3 : V3 m ρ c main_v1 = Cert.ReferenceIdeal.Read.val_main_v7 (F := Ideal) (m ((c : Thread nD τ).loc main_arg1)) (m ((c : Thread nD τ).loc main_arg10)) (m ((c : Thread nD τ).loc main_arg11)) :=
  (show StableHlo.after hostOps2 (W2 m ρ c) (Proc.devRef .tc main_v1) = W2 m ρ c (Proc.devRef .tc main_v1) by host_untouched hostOps2).trans (v1_2 m ρ c)
theorem a12_3 : W3 m ρ c (Proc.devRef .tc main_arg12) = (m ((c : Thread nD τ).loc main_arg12)) :=
  (show StableHlo.after hostOps2 (W2 m ρ c) (Proc.devRef .tc main_arg12) = W2 m ρ c (Proc.devRef .tc main_arg12) by host_untouched hostOps2).trans ((W2_of_ne m ρ c main_arg12 (by decide)).trans ((W1_of_ne m ρ c main_arg12 (by decide))))
theorem a13_3 : W3 m ρ c (Proc.devRef .tc main_arg13) = (m ((c : Thread nD τ).loc main_arg13)) :=
  (show StableHlo.after hostOps2 (W2 m ρ c) (Proc.devRef .tc main_arg13) = W2 m ρ c (Proc.devRef .tc main_arg13) by host_untouched hostOps2).trans ((W2_of_ne m ρ c main_arg13 (by decide)).trans ((W1_of_ne m ρ c main_arg13 (by decide))))
theorem a14_3 : W3 m ρ c (Proc.devRef .tc main_arg14) = (m ((c : Thread nD τ).loc main_arg14)) :=
  (show StableHlo.after hostOps2 (W2 m ρ c) (Proc.devRef .tc main_arg14) = W2 m ρ c (Proc.devRef .tc main_arg14) by host_untouched hostOps2).trans ((W2_of_ne m ρ c main_arg14 (by decide)).trans ((W1_of_ne m ρ c main_arg14 (by decide))))

theorem v21_4 : W4 m ρ c (Proc.devRef .tc main_v21) = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (W4_arr m ρ c 5).trans ((SagePValue.arr (V3 m ρ) c).trans (by
    rw [v20_3, v1_3, show V3 m ρ c main_arg12 = _ from a12_3 m ρ c, show V3 m ρ c main_arg13 = _ from a13_3 m ρ c, show V3 m ρ c main_arg14 = _ from a14_3 m ρ c]
    exact Cert.ReferenceIdeal.RefIs.sageP_eq _ _ _ _ _ _ _ _ _ _ _))

/-- The projected protein features pass through the first SAGE region as one of its input arrays, unchanged. -/
theorem v1_4 : W4 m ρ c (Proc.devRef .tc main_v1) = Cert.ReferenceIdeal.Read.val_main_v7 (F := Ideal) (m ((c : Thread nD τ).loc main_arg1)) (m ((c : Thread nD τ).loc main_arg10)) (m ((c : Thread nD τ).loc main_arg11)) :=
  (W4_arr m ρ c 1).trans (((dat2 (V3 m ρ) c).arrAt_in 1 rfl _).trans ((A_eq2 (V3 m ρ) c 1).trans (v1_3 m ρ c)))
theorem a4_4 : W4 m ρ c (Proc.devRef .tc main_arg4) = (m ((c : Thread nD τ).loc main_arg4)) :=
  (W4_of_ne m ρ c main_arg4 (by decide)).trans ((show StableHlo.after hostOps2 (W2 m ρ c) (Proc.devRef .tc main_arg4) = W2 m ρ c (Proc.devRef .tc main_arg4) by host_untouched hostOps2).trans ((W2_of_ne m ρ c main_arg4 (by decide)).trans ((W1_of_ne m ρ c main_arg4 (by decide)))))
theorem a5_4 : W4 m ρ c (Proc.devRef .tc main_arg5) = (m ((c : Thread nD τ).loc main_arg5)) :=
  (W4_of_ne m ρ c main_arg5 (by decide)).trans ((show StableHlo.after hostOps2 (W2 m ρ c) (Proc.devRef .tc main_arg5) = W2 m ρ c (Proc.devRef .tc main_arg5) by host_untouched hostOps2).trans ((W2_of_ne m ρ c main_arg5 (by decide)).trans ((W1_of_ne m ρ c main_arg5 (by decide)))))

set_option maxHeartbeats 2000000 in
/-- The aggregated protein features at the second SAGE region's entry: the reference's own host operations on the projected
    protein features and the other two edge-index arrays. -/
theorem v40_5 : V5 m ρ c main_v40 = Cert.ReferenceIdeal.Read.val_main_v51 (F := Ideal) (m ((c : Thread nD τ).loc main_arg1)) (m ((c : Thread nD τ).loc main_arg4)) (m ((c : Thread nD τ).loc main_arg5)) (m ((c : Thread nD τ).loc main_arg10)) (m ((c : Thread nD τ).loc main_arg11)) := by
  show StableHlo.after hostOps3 (W4 m ρ c) (Proc.devRef .tc main_v40) = _
  dsimp only [hostOps3]
  after_results
  rw [v1_4, a4_4, a5_4]
  simp only [Cert.ReferenceIdeal.Read.val_main_c_4, Cert.ReferenceIdeal.Read.val_main_v33, Cert.ReferenceIdeal.Read.val_main_v34, Cert.ReferenceIdeal.Read.val_main_c_5, Cert.ReferenceIdeal.Read.val_main_v35, Cert.ReferenceIdeal.Read.val_main_v36, Cert.ReferenceIdeal.Read.val_main_v37, Cert.ReferenceIdeal.Read.val_main_v38, Cert.ReferenceIdeal.Read.val_main_v39, Cert.ReferenceIdeal.Read.val_main_cst_6, Cert.ReferenceIdeal.Read.val_main_v40, Cert.ReferenceIdeal.Read.val_main_v41, Cert.ReferenceIdeal.Read.val_main_v42, Cert.ReferenceIdeal.Read.val_main_cst_7, Cert.ReferenceIdeal.Read.val_main_v43, Cert.ReferenceIdeal.Read.val_main_cst_8, Cert.ReferenceIdeal.Read.val_main_v44, Cert.ReferenceIdeal.Read.val_main_v45, Cert.ReferenceIdeal.Read.val_main_v46, Cert.ReferenceIdeal.Read.val_main_cst_9, Cert.ReferenceIdeal.Read.val_main_v47, Cert.ReferenceIdeal.Read.val_main_v48, Cert.ReferenceIdeal.Read.val_main_v49, Cert.ReferenceIdeal.Read.val_main_v50, Cert.ReferenceIdeal.Read.val_main_v51]
  rfl

theorem v0_5 : V5 m ρ c main_v0 = Cert.ReferenceIdeal.Read.val_main_v3 (F := Ideal) (m ((c : Thread nD τ).loc main_arg0)) (m ((c : Thread nD τ).loc main_arg8)) (m ((c : Thread nD τ).loc main_arg9)) :=
  ((show StableHlo.after hostOps3 (W4 m ρ c) (Proc.devRef .tc main_v0) = W4 m ρ c (Proc.devRef .tc main_v0) by host_untouched hostOps3).trans ((W4_of_ne m ρ c main_v0 (by decide)).trans ((show StableHlo.after hostOps2 (W2 m ρ c) (Proc.devRef .tc main_v0) = W2 m ρ c (Proc.devRef .tc main_v0) by host_untouched hostOps2)))).trans (v0_2 m ρ c)
theorem a15_5 : W5 m ρ c (Proc.devRef .tc main_arg15) = (m ((c : Thread nD τ).loc main_arg15)) :=
  (show StableHlo.after hostOps3 (W4 m ρ c) (Proc.devRef .tc main_arg15) = W4 m ρ c (Proc.devRef .tc main_arg15) by host_untouched hostOps3).trans ((W4_of_ne m ρ c main_arg15 (by decide)).trans ((show StableHlo.after hostOps2 (W2 m ρ c) (Proc.devRef .tc main_arg15) = W2 m ρ c (Proc.devRef .tc main_arg15) by host_untouched hostOps2).trans ((W2_of_ne m ρ c main_arg15 (by decide)).trans ((W1_of_ne m ρ c main_arg15 (by decide))))))
theorem a16_5 : W5 m ρ c (Proc.devRef .tc main_arg16) = (m ((c : Thread nD τ).loc main_arg16)) :=
  (show StableHlo.after hostOps3 (W4 m ρ c) (Proc.devRef .tc main_arg16) = W4 m ρ c (Proc.devRef .tc main_arg16) by host_untouched hostOps3).trans ((W4_of_ne m ρ c main_arg16 (by decide)).trans ((show StableHlo.after hostOps2 (W2 m ρ c) (Proc.devRef .tc main_arg16) = W2 m ρ c (Proc.devRef .tc main_arg16) by host_untouched hostOps2).trans ((W2_of_ne m ρ c main_arg16 (by decide)).trans ((W1_of_ne m ρ c main_arg16 (by decide))))))
theorem a17_5 : W5 m ρ c (Proc.devRef .tc main_arg17) = (m ((c : Thread nD τ).loc main_arg17)) :=
  (show StableHlo.after hostOps3 (W4 m ρ c) (Proc.devRef .tc main_arg17) = W4 m ρ c (Proc.devRef .tc main_arg17) by host_untouched hostOps3).trans ((W4_of_ne m ρ c main_arg17 (by decide)).trans ((show StableHlo.after hostOps2 (W2 m ρ c) (Proc.devRef .tc main_arg17) = W2 m ρ c (Proc.devRef .tc main_arg17) by host_untouched hostOps2).trans ((W2_of_ne m ρ c main_arg17 (by decide)).trans ((W1_of_ne m ρ c main_arg17 (by decide))))))

theorem v41_6 : W6 m ρ c (Proc.devRef .tc main_v41) = Cert.ReferenceIdeal.Read.val_main_v57 (F := Ideal) (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17)) :=
  (W6_arr m ρ c 5).trans ((SageDValue.arr (V5 m ρ) c).trans (by
    rw [v40_5, v0_5, show V5 m ρ c main_arg15 = _ from a15_5 m ρ c, show V5 m ρ c main_arg16 = _ from a16_5 m ρ c, show V5 m ρ c main_arg17 = _ from a17_5 m ρ c]
    exact Cert.ReferenceIdeal.RefIs.sageD_eq _ _ _ _ _ _ _ _ _ _ _))

theorem v21_6 : W6 m ρ c (Proc.devRef .tc main_v21) = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  ((W6_of_ne m ρ c main_v21 (by decide)).trans ((show StableHlo.after hostOps3 (W4 m ρ c) (Proc.devRef .tc main_v21) = W4 m ρ c (Proc.devRef .tc main_v21) by host_untouched hostOps3))).trans (v21_4 m ρ c)
theorem a6_6 : W6 m ρ c (Proc.devRef .tc main_arg6) = (m ((c : Thread nD τ).loc main_arg6)) :=
  (W6_of_ne m ρ c main_arg6 (by decide)).trans ((show StableHlo.after hostOps3 (W4 m ρ c) (Proc.devRef .tc main_arg6) = W4 m ρ c (Proc.devRef .tc main_arg6) by host_untouched hostOps3).trans ((W4_of_ne m ρ c main_arg6 (by decide)).trans ((show StableHlo.after hostOps2 (W2 m ρ c) (Proc.devRef .tc main_arg6) = W2 m ρ c (Proc.devRef .tc main_arg6) by host_untouched hostOps2).trans ((W2_of_ne m ρ c main_arg6 (by decide)).trans ((W1_of_ne m ρ c main_arg6 (by decide)))))))
theorem a7_6 : W6 m ρ c (Proc.devRef .tc main_arg7) = (m ((c : Thread nD τ).loc main_arg7)) :=
  (W6_of_ne m ρ c main_arg7 (by decide)).trans ((show StableHlo.after hostOps3 (W4 m ρ c) (Proc.devRef .tc main_arg7) = W4 m ρ c (Proc.devRef .tc main_arg7) by host_untouched hostOps3).trans ((W4_of_ne m ρ c main_arg7 (by decide)).trans ((show StableHlo.after hostOps2 (W2 m ρ c) (Proc.devRef .tc main_arg7) = W2 m ρ c (Proc.devRef .tc main_arg7) by host_untouched hostOps2).trans ((W2_of_ne m ρ c main_arg7 (by decide)).trans ((W1_of_ne m ρ c main_arg7 (by decide)))))))
theorem a18_6 : W6 m ρ c (Proc.devRef .tc main_arg18) = (m ((c : Thread nD τ).loc main_arg18)) :=
  (W6_of_ne m ρ c main_arg18 (by decide)).trans ((show StableHlo.after hostOps3 (W4 m ρ c) (Proc.devRef .tc main_arg18) = W4 m ρ c (Proc.devRef .tc main_arg18) by host_untouched hostOps3).trans ((W4_of_ne m ρ c main_arg18 (by decide)).trans ((show StableHlo.after hostOps2 (W2 m ρ c) (Proc.devRef .tc main_arg18) = W2 m ρ c (Proc.devRef .tc main_arg18) by host_untouched hostOps2).trans ((W2_of_ne m ρ c main_arg18 (by decide)).trans ((W1_of_ne m ρ c main_arg18 (by decide)))))))

/-! ## The third host stretch: the two pair gathers and the two halves of the first head weight -/

set_option maxHeartbeats 2000000 in
theorem v48_7 : V7 m ρ c main_v48 = Cert.ReferenceIdeal.Read.val_main_v64 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17)) := by
  show StableHlo.after hostOps4 (W6 m ρ c) (Proc.devRef .tc main_v48) = _
  dsimp only [hostOps4]
  after_results
  rw [v41_6, a6_6]
  simp only [Cert.ReferenceIdeal.Read.val_main_c_10, Cert.ReferenceIdeal.Read.val_main_v58, Cert.ReferenceIdeal.Read.val_main_v59, Cert.ReferenceIdeal.Read.val_main_c_11, Cert.ReferenceIdeal.Read.val_main_v60, Cert.ReferenceIdeal.Read.val_main_v61, Cert.ReferenceIdeal.Read.val_main_v62, Cert.ReferenceIdeal.Read.val_main_v63, Cert.ReferenceIdeal.Read.val_main_v64]
  rfl

set_option maxHeartbeats 2000000 in
theorem v55_7 : V7 m ρ c main_v55 = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after hostOps4 (W6 m ρ c) (Proc.devRef .tc main_v55) = _
  dsimp only [hostOps4]
  after_results
  rw [v21_6, a7_6]
  simp only [Cert.ReferenceIdeal.Read.val_main_c_12, Cert.ReferenceIdeal.Read.val_main_v65, Cert.ReferenceIdeal.Read.val_main_v66, Cert.ReferenceIdeal.Read.val_main_c_13, Cert.ReferenceIdeal.Read.val_main_v67, Cert.ReferenceIdeal.Read.val_main_v68, Cert.ReferenceIdeal.Read.val_main_v69, Cert.ReferenceIdeal.Read.val_main_v70, Cert.ReferenceIdeal.Read.val_main_v71]
  rfl

set_option maxHeartbeats 2000000 in
theorem v56_7 : V7 m ρ c main_v56 = extractStridedSlice S128x128 ![0, 0] (m ((c : Thread nD τ).loc main_arg18)) slices_S256x128_S128x128_0_0 := by
  show StableHlo.after hostOps4 (W6 m ρ c) (Proc.devRef .tc main_v56) = _
  dsimp only [hostOps4]
  after_results
  rw [a18_6]

set_option maxHeartbeats 2000000 in
theorem v57_7 : V7 m ρ c main_v57 = extractStridedSlice S128x128 ![128, 0] (m ((c : Thread nD τ).loc main_arg18)) slices_S256x128_S128x128_128_0 := by
  show StableHlo.after hostOps4 (W6 m ρ c) (Proc.devRef .tc main_v57) = _
  dsimp only [hostOps4]
  after_results
  rw [a18_6]
theorem a19_7 : W7 m ρ c (Proc.devRef .tc main_arg19) = (m ((c : Thread nD τ).loc main_arg19)) :=
  (show StableHlo.after hostOps4 (W6 m ρ c) (Proc.devRef .tc main_arg19) = W6 m ρ c (Proc.devRef .tc main_arg19) by host_untouched hostOps4).trans ((W6_of_ne m ρ c main_arg19 (by decide)).trans ((show StableHlo.after hostOps3 (W4 m ρ c) (Proc.devRef .tc main_arg19) = W4 m ρ c (Proc.devRef .tc main_arg19) by host_untouched hostOps3).trans ((W4_of_ne m ρ c main_arg19 (by decide)).trans ((show StableHlo.after hostOps2 (W2 m ρ c) (Proc.devRef .tc main_arg19) = W2 m ρ c (Proc.devRef .tc main_arg19) by host_untouched hostOps2).trans ((W2_of_ne m ρ c main_arg19 (by decide)).trans ((W1_of_ne m ρ c main_arg19 (by decide))))))))
theorem a20_7 : W7 m ρ c (Proc.devRef .tc main_arg20) = (m ((c : Thread nD τ).loc main_arg20)) :=
  (show StableHlo.after hostOps4 (W6 m ρ c) (Proc.devRef .tc main_arg20) = W6 m ρ c (Proc.devRef .tc main_arg20) by host_untouched hostOps4).trans ((W6_of_ne m ρ c main_arg20 (by decide)).trans ((show StableHlo.after hostOps3 (W4 m ρ c) (Proc.devRef .tc main_arg20) = W4 m ρ c (Proc.devRef .tc main_arg20) by host_untouched hostOps3).trans ((W4_of_ne m ρ c main_arg20 (by decide)).trans ((show StableHlo.after hostOps2 (W2 m ρ c) (Proc.devRef .tc main_arg20) = W2 m ρ c (Proc.devRef .tc main_arg20) by host_untouched hostOps2).trans ((W2_of_ne m ρ c main_arg20 (by decide)).trans ((W1_of_ne m ρ c main_arg20 (by decide))))))))
theorem a21_7 : W7 m ρ c (Proc.devRef .tc main_arg21) = (m ((c : Thread nD τ).loc main_arg21)) :=
  (show StableHlo.after hostOps4 (W6 m ρ c) (Proc.devRef .tc main_arg21) = W6 m ρ c (Proc.devRef .tc main_arg21) by host_untouched hostOps4).trans ((W6_of_ne m ρ c main_arg21 (by decide)).trans ((show StableHlo.after hostOps3 (W4 m ρ c) (Proc.devRef .tc main_arg21) = W4 m ρ c (Proc.devRef .tc main_arg21) by host_untouched hostOps3).trans ((W4_of_ne m ρ c main_arg21 (by decide)).trans ((show StableHlo.after hostOps2 (W2 m ρ c) (Proc.devRef .tc main_arg21) = W2 m ρ c (Proc.devRef .tc main_arg21) by host_untouched hostOps2).trans ((W2_of_ne m ρ c main_arg21 (by decide)).trans ((W1_of_ne m ρ c main_arg21 (by decide))))))))

/-! ## The pair head and the final reshape -/

set_option maxHeartbeats 2000000 in
/-- The pair head's output array: the region's whole-array function of its seven input arrays, which is the reference's stage
    before the final reshape (the reference's concatenation against the whole first weight is the two half products added). -/
theorem v58_8 : W8 m ρ c (Proc.devRef .tc main_v58) = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) :=
  (W8_arr m ρ c 7).trans ((MlpValue.arr (V7 m ρ) c).trans (by
    rw [v48_7, v55_7, v56_7, v57_7, show V7 m ρ c main_arg19 = _ from a19_7 m ρ c, show V7 m ρ c main_arg20 = _ from a20_7 m ρ c,
      show V7 m ρ c main_arg21 = _ from a21_7 m ρ c]
    exact (Cert.ReferenceIdeal.MlpRef.val81_eq _ _ _ _ _ _ _ _ _ _ _ _ _ _ _ _ _ _ _ _ _ _ slices_S256x128_S128x128_0_0 slices_S256x128_S128x128_128_0).symm))

set_option maxHeartbeats 2000000 in
/-- THE KERNEL'S RESULT: the last boundary's contents at the result buffer are the reference's last stage of the arguments. -/
theorem v59_9 : W9 m ρ c (Proc.devRef .tc main_v59) = Cert.ReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  show StableHlo.after hostOps5 (W8 m ρ c) (Proc.devRef .tc main_v59) = _
  dsimp only [hostOps5]
  after_results
  rw [v58_8]
  rfl

end Cert.KernelIdeal.Walk

end
-- ==== Proof.lean ====
/-
  GraphSAGE forward over a drug–protein graph: the pallas kernel against its jnp reference.

  Both programs compute, for 65536 (drug, protein) pairs,
      out = relu([xd_out[drug] ‖ xp_out[protein]] · W1 + b1) · W2 + b2,
  where xd = x_drug·W_d + b_d and xp = x_protein·W_p + b_p are two linear projections, and each side is updated by
  a SAGE layer  x_out = mean_aggr(other side over the edges)·W_l + b_l + x·W_r.

  The kernel runs the two projections, the two SAGE combinations and the pair head as five row-blocked
  pipelined regions, with the edge aggregation (gather, scatter-add, count, division) and the pair gathers as
  plain host operations between them — the same host operations, in the same order and with the same
  literals, as the reference's.  Read on the extended reals, where a change of float format is the identity and
  a matrix product is the exact finite sum:
    * each region's output array is one whole-array function of its input arrays (blocks of rows tile the array,
      and a block's row is the array's row);
    * those functions are the reference's corresponding stages: a product plus bias; product, bias, product in the
      same order of additions; and for the head, the reference's one product of the 256-wide concatenation
      against W1 is the sum of the two 128-wide products against the halves of W1, because a finite sum over 256
      positions is the sum over the first 128 plus the sum over the last 128 in any commutative monoid.
  No step uses distributivity, cancellation or any law that fails at an infinity, so the precondition that the
  inputs are finite is never opened for the value claim.  The three frames are the generated ones (the
  reference's is its generated run with the result dropped); the idealization ledger is empty.
-/
import proofs.«170178_j15101105013216_1_alg».proof.Defs
import proofs.«170178_j15101105013216_1_alg».proof.Proof.Gen.Kernel
import proofs.«170178_j15101105013216_1_alg».proof.Proof.Gen.Kernel.Skeleton
import proofs.«170178_j15101105013216_1_alg».proof.Proof.Gen.Kernel.Launch
import proofs.«170178_j15101105013216_1_alg».proof.Proof.Gen.Kernel.Points
import proofs.«170178_j15101105013216_1_alg».proof.Proof.Gen.Kernel.Frame
import proofs.«170178_j15101105013216_1_alg».proof.Proof.Gen.KernelIdeal
import proofs.«170178_j15101105013216_1_alg».proof.Proof.Gen.KernelIdeal.Skeleton
import proofs.«170178_j15101105013216_1_alg».proof.Proof.Gen.KernelIdeal.Launch
import proofs.«170178_j15101105013216_1_alg».proof.Proof.Gen.KernelIdeal.Points
import proofs.«170178_j15101105013216_1_alg».proof.Proof.Gen.KernelIdeal.Frame
import proofs.«170178_j15101105013216_1_alg».proof.Proof.Gen.ReferenceIdeal
import proofs.«170178_j15101105013216_1_alg».proof.Proof.Gen.ReferenceIdeal.Run
import proofs.«170178_j15101105013216_1_alg».proof.Proof.Gen.ReferenceIdeal.Read
import proofs.«170178_j15101105013216_1_alg».proof.Proof.Gen.Pre_finite_inputs
import proofs.«170178_j15101105013216_1_alg».proof.Proof.KernelRun
import proofs.«170178_j15101105013216_1_alg».proof.Proof.Walk
import Idealize.ShloMosaic.Adequacy
import Idealize.ShloMosaic.Init

noncomputable section

namespace Cert.Proof

open Idealize.ShloMosaic Idealize.SL.Sem

/-- The kernel as printed runs to the end without a fault and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read on the extended reals. -/
theorem preserves : Cert.preserves_Kernel_KernelIdeal := trivial

/-- From memories that agree on the arguments both programs end with the same result array: the kernel's is the reference's
    last stage of the kernel's arguments, the reference's is that stage of its own arguments, and the arguments agree. -/
theorem algebraic : Cert.algebraic_KernelIdeal_ReferenceIdeal := by
  intro m ρ m' ρ' _ hagree
  refine ⟨fun c => Cert.KernelIdeal.Gen.W9 m ρ c (Proc.devRef .tc Cert.KernelIdeal.main_v59), Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21⟩ := hagree c
  rw [Cert.ReferenceIdeal.Read.val_main_v82_eq, h0, h1, h2, h3, h4, h5, h6, h7, h8, h9, h10, h11, h12, h13, h14, h15, h16, h17, h18, h19, h20, h21]
  exact (Cert.KernelIdeal.Walk.v59_9 m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
